-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x37 : Shape := ⟨2, ![50000, 37]⟩
abbrev S2x600000 : Shape := ⟨2, ![2, 600000]⟩
abbrev S50000 : Shape := ⟨1, ![50000]⟩
abbrev S37x64 : Shape := ⟨2, ![37, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x37 : S_.BroadcastsInDim S50000x37 (![] : Fin 0 → Fin S50000x37.rank)
  reducesTo_S50000x37_S_d0_1 : S50000x37.ReducesTo [0, 1] S_
  h_S_ : 0 < S_.numel
  bcast_S_S37x64 : S_.BroadcastsInDim S37x64 (![] : Fin 0 → Fin S37x64.rank)
  reducesTo_S37x64_S_d0_1 : S37x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64x128 .f32) (main_arg10 : FVec F S128 .f32) (main_arg11 : FVec F S128x64 .f32) (main_arg12 : FVec F S64 .f32) (main_arg13 : FVec F S64 .f32) (main_arg14 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x64 .f32) (main_arg8 : FVec F S64 .f32) (main_arg9 : FVec F S64x128 .f32) (main_arg10 : FVec F S128 .f32) (main_arg11 : FVec F S128x64 .f32) (main_arg12 : FVec F S64 .f32) (main_arg13 : FVec F S64 .f32) (main_arg14 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x37 .f32) (main_arg1 : IVec S2x600000 32) (main_arg2 : IVec S50000 32) (main_arg3 : FVec F S37x64 .f32) (main_arg4 : FVec F S64 .f32) (main_arg5 : FVec F S64x128 .f32) (main_arg6 : FVec F S128 .f32) (main_arg7 : FVec F S128x64 .f32) (main_arg8 : FVec F S64 .f32) (main_arg9 : FVec F S64x128 .f32) (main_arg10 : FVec F S128 .f32) (main_arg11 : FVec F S128x64 .f32) (main_arg12 : FVec F S64 .f32) (main_arg13 : FVec F S64 .f32) (main_arg14 : FVec F S64 .f32) : IVec S_ 1 :=
  let main_v0 : FVec F S50000x37 .f32 := Host.absf main_arg0
  let main_cst : FVec F S_ .f32 := constant S_ .f32 0x7F800000#32
  let main_v1 : FVec F S50000x37 .f32 := broadcastInDim S50000x37 ![] bcast_S_S50000x37 main_cst
  let main_v2 : IVec S50000x37 1 := cmpf .olt main_v0 main_v1
  let main_c : IVec S_ 1 := constantI S_ 1 1#1
  let main_v3 : IVec S_ 1 := (fun x v => Host.reduce IntOp.andi x v reducesTo_S50000x37_S_d0_1 h_S_) main_v2 main_c
  let main_v4 : FVec F S37x64 .f32 := Host.absf main_arg3
  let main_cst_0 : FVec F S_ .f32 := constant S_ .f32 0x7F800000#32
  let main_v5 : FVec F S37x64 .f32 := broadcastInDim S37x64 ![] bcast_S_S37x64 main_cst_0
  let main_v6 : IVec S37x64 1 := cmpf .olt main_v4 main_v5
  let main_c_1 : IVec S_ 1 := constantI S_ 1 1#1
  let main_v7 : IVec S_ 1 := (fun x v => Host.reduce IntOp.andi x v reducesTo_S37x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_v13 main_v16
-- ==== Kernel.lean ====
abbrev S50000x37 : Shape := ⟨2, ![50000, 37]⟩
abbrev S2x600000 : Shape := ⟨2, ![2, 600000]⟩
abbrev S50000 : Shape := ⟨1, ![50000]⟩
abbrev S37x64 : Shape := ⟨2, ![37, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x64 : Shape := ⟨2, ![50000, 64]⟩
abbrev S5000x37 : Shape := ⟨2, ![5000, 37]⟩
abbrev S5000x64 : Shape := ⟨2, ![5000, 64]⟩
abbrev S650000x64 : Shape := ⟨2, ![650000, 64]⟩
abbrev S1x64 : Shape := ⟨2, ![1, 64]⟩
abbrev S50000x128 : Shape := ⟨2, ![50000, 128]⟩
abbrev S5000x128 : Shape := ⟨2, ![5000, 128]⟩
abbrev S650000x128 : Shape := ⟨2, ![650000, 128]⟩
abbrev S1x128 : Shape := ⟨2, ![1, 128]⟩
abbrev S1000x64 : Shape := ⟨2, ![1000, 64]⟩
abbrev S50000x1 : Shape := ⟨2, ![50000, 1]⟩
abbrev S1000 : Shape := ⟨1, ![1000]⟩
abbrev S1000x1 : Shape := ⟨2, ![1000, 1]⟩
abbrev S1000x128 : Shape := ⟨2, ![1000, 128]⟩

abbrev nBuf : Space → Nat
  | .hbm => 138
  | .vmem => 42
  | .smem => 0
  | _ => 0

abbrev hbmTy0_0 (i : Nat) : BufTy := match i % 128 with
  | 0 => ⟨S50000x37, .f32⟩
  | 1 => ⟨S2x600000, .i32⟩
  | 2 => ⟨S50000, .i32⟩
  | 3 => ⟨S37x64, .f32⟩
  | 4 => ⟨S64, .f32⟩
  | 5 => ⟨S64x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x64, .f32⟩
  | 12 => ⟨S64, .f32⟩
  | 13 => ⟨S64, .f32⟩
  | 14 => ⟨S64, .f32⟩
  | 15 => ⟨S50000, .i32⟩
  | 16 => ⟨S1x600000, .i32⟩
  | 17 => ⟨S600000, .i32⟩
  | 18 => ⟨S650000, .i32⟩
  | 19 => ⟨S1x600000, .i32⟩
  | 20 => ⟨S600000, .i32⟩
  | 21 => ⟨S650000, .i32⟩
  | 22 => ⟨S_, .f32⟩
  | 23 => ⟨S650000, .f32⟩
  | 24 => ⟨S_, .f32⟩
  | 25 => ⟨S50000, .f32⟩
  | 26 => ⟨S650000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S650000, .f32⟩
  | 58 => ⟨S50000x64, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x64, .f32⟩
  | 68 => ⟨S650000x1, .f32⟩
  | 69 => ⟨S650000x64, .f32⟩
  | 70 => ⟨S650000x64, .f32⟩
  | 71 => ⟨S_, .f32⟩
  | 72 => ⟨S50000x64, .f32⟩
  | 73 => ⟨S650000x1, .i32⟩
  | 74 => ⟨S50000x64, .f32⟩
  | 75 => ⟨S1x64, .f32⟩
  | 76 => ⟨S50000x64, .f32⟩
  | 77 => ⟨S50000x128, .f32⟩
  | 78 => ⟨S_, .i32⟩
  | 79 => ⟨S650000, .i32⟩
  | 80 => ⟨S650000, .i1⟩
  | 81 => ⟨S_, .i32⟩
  | 82 => ⟨S650000, .i32⟩
  | 83 => ⟨S650000, .i32⟩
  | 84 => ⟨S650000, .i32⟩
  | 85 => ⟨S650000x1, .i32⟩
  | 86 => ⟨S650000x128, .f32⟩
  | 87 => ⟨S650000x1, .f32⟩
  | 88 => ⟨S650000x128, .f32⟩
  | 89 => ⟨S650000x128, .f32⟩
  | 90 => ⟨S_, .f32⟩
  | 91 => ⟨S50000x128, .f32⟩
  | 92 => ⟨S650000x1, .i32⟩
  | 93 => ⟨S50000x128, .f32⟩
  | 94 => ⟨S1x128, .f32⟩
  | 95 => ⟨S50000x128, .f32⟩
  | 96 => ⟨S50000x64, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000x64, .f32⟩
  | 106 => ⟨S650000x1, .f32⟩
  | 107 => ⟨S650000x64, .f32⟩
  | 108 => ⟨S650000x64, .f32⟩
  | 109 => ⟨S_, .f32⟩
  | 110 => ⟨S50000x64, .f32⟩
  | 111 => ⟨S650000x1, .i32⟩
  | 112 => ⟨S50000x64, .f32⟩
  | 113 => ⟨S1x64, .f32⟩
  | 114 => ⟨S50000x64, .f32⟩
  | 115 => ⟨S_, .f32⟩
  | 116 => ⟨S1000x64, .f32⟩
  | 117 => ⟨S50000x1, .i32⟩
  | 118 => ⟨S1000x64, .f32⟩
  | 119 => ⟨S_, .f32⟩
  | 120 => ⟨S50000, .f32⟩
  | 121 => ⟨S_, .f32⟩
  | 122 => ⟨S1000, .f32⟩
  | 123 => ⟨S50000x1, .i32⟩
  | 124 => ⟨S1000, .f32⟩
  | 125 => ⟨S_, .f32⟩
  | 126 => ⟨S1000, .f32⟩
  | 127 => ⟨S1000, .f32⟩
  | _ => ⟨S50000x37, .f32⟩

abbrev hbmTy0_1 (i : Nat) : BufTy := match i % 128 with
  | 0 => ⟨S1000x1, .f32⟩
  | 1 => ⟨S1000x64, .f32⟩
  | 2 => ⟨S1000x64, .f32⟩
  | 3 => ⟨S1x128, .f32⟩
  | 4 => ⟨S1000x128, .f32⟩
  | 5 => ⟨S1x64, .f32⟩
  | 6 => ⟨S1000x64, .f32⟩
  | 7 => ⟨S1x64, .f32⟩
  | 8 => ⟨S1x64, .f32⟩
  | 9 => ⟨S1000x64, .f32⟩
  | _ => ⟨S50000x37, .f32⟩

abbrev hbmTy (i : Nat) : BufTy := match i / 128 with
  | 0 => hbmTy0_0 i
  | 1 => hbmTy0_1 i
  | _ => ⟨S50000x37, .f32⟩

abbrev bufTy : (tb : Table) → Fin (tcTables nBuf tb) → BufTy
  | .hbm, ⟨i, _⟩ => hbmTy i
  | .local _ .vmem, ⟨0, _⟩ => ⟨S5000x37, .f32⟩
  | .local _ .vmem, ⟨1, _⟩ => ⟨S5000x37, .f32⟩
  | .local _ .vmem, ⟨2, _⟩ => ⟨S37x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1000x64, .f32⟩
  | .local _ .vmem, ⟨31, _⟩ => ⟨S64x128, .f32⟩
  | .local _ .vmem, ⟨32, _⟩ => ⟨S1x128, .f32⟩
  | .local _ .vmem, ⟨33, _⟩ => ⟨S1000x128, .f32⟩
  | .local _ .vmem, ⟨34, _⟩ => ⟨S1000x128, .f32⟩
  | .local _ .vmem, ⟨35, _⟩ => ⟨S128x64, .f32⟩
  | .local _ .vmem, ⟨36, _⟩ => ⟨S1x64, .f32⟩
  | .local _ .vmem, ⟨37, _⟩ => ⟨S1000x64, .f32⟩
  | .local _ .vmem, ⟨38, _⟩ => ⟨S1000x64, .f32⟩
  | .local _ .vmem, ⟨39, _⟩ => ⟨S1x64, .f32⟩
  | .local _ .vmem, ⟨40, _⟩ => ⟨S1x64, .f32⟩
  | .local _ .vmem, ⟨41, _⟩ => ⟨S1000x64, .f32⟩
  | _, _ => ⟨S50000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_16 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc7_stg0_0 : Ref sig .tc := ⟨.vmem, 34, rfl⟩
abbrev cc7_stg1_0 : Ref sig .tc := ⟨.vmem, 35, rfl⟩
abbrev cc7_stg2_0 : Ref sig .tc := ⟨.vmem, 36, rfl⟩
abbrev cc7_stg3_0 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg2_0 : Ref sig .tc := ⟨.vmem, 40, rfl⟩
abbrev cc8_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc7_sem0_0 : DmaSem sig := 34
abbrev cc7_sem1_0 : DmaSem sig := 35
abbrev cc7_sem2_0 : DmaSem sig := 36
abbrev cc7_sem3_0 : DmaSem sig := 37
abbrev cc8_sem0_0 : DmaSem sig := 38
abbrev cc8_sem1_0 : DmaSem sig := 39
abbrev cc8_sem2_0 : DmaSem sig := 40
abbrev cc8_sem3_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S37x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1000x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1000x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1000x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1000x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x37_S5000x37_0_0 : ∀ a, (![0, 0] : Fin 2 → Nat) a + S5000x37.size a ≤ S5000x37.size a
  h_S5000x37 : 0 < S5000x37.numel
  bitsLt_bf16_f32 : FTy.bits .bf16 < FTy.bits .f32
  inb_S37x64_S37x64_0_0 : ∀ a, (![0, 0] : Fin 2 → Nat) a + S37x64.size a ≤ S37x64.size a
  h_S37x64 : 0 < S37x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x37_S37x64_S5000x64_1_0_0_1_n_n_wf : DotDims.WF S5000x37 S37x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S5000x64_S64x128_S5000x128_1_0_0_1_n_n_wf : DotDims.WF S5000x64 S64x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  scatter_S1000x64_S50000x1_S50000x64_1_0_0_1_wf : ScatterDims.WF S1000x64 S50000x1 S50000x64 [1] [0] [0] 1
  scatter_S1000_S50000x1_S50000_n_0_0_1_wf : ScatterDims.WF S1000 S50000x1 S50000 [] [0] [0] 1
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x37.size a ≤ S50000x37.size a
  hwx0_0 : ∀ i : grid0.Coords, EltTy.bits .f32 = 32 ∨ (Rect.block (s := S50000x37) S5000x37.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S37x64.size a ≤ S37x64.size a
  hwx0_1 : ∀ i : grid0.Coords, EltTy.bits .f32 = 32 ∨ (Rect.block (s := S37x64) S37x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S1000x64.size a
  hwx6_0 : ∀ i : grid6.Coords, EltTy.bits .f32 = 32 ∨ (Rect.block (s := S1000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1000x128.size a ≤ S1000x128.size a
  hwx6_3 : ∀ i : grid6.Coords, EltTy.bits .f32 = 32 ∨ (Rect.block (s := S1000x128) S1000x128.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S1000x128.size a
  hwx7_0 : ∀ i : grid7.Coords, EltTy.bits .f32 = 32 ∨ (Rect.block (s := S1000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1000x64.size a ≤ S1000x64.size a
  hwx7_3 : ∀ i : grid7.Coords, EltTy.bits .f32 = 32 ∨ (Rect.block (s := S1000x64) S1000x64.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1000x64.size a ≤ S1000x64.size a
  hwx8_0 : ∀ i : grid8.Coords, EltTy.bits .f32 = 32 ∨ (Rect.block (s := S1000x64) S1000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1000x64.size a ≤ S1000x64.size a
  hwx8_3 : ∀ i : grid8.Coords, EltTy.bits .f32 = 32 ∨ (Rect.block (s := S1000x64) S1000x64.size (cc8_transform_3 i) (hinb8_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x37_S37x64_S5000x64_1_0_0_1_n_n : DotDims S5000x37 S37x64 S5000x64 where
  lhsContracting := [1]
  rhsContracting := [0]
  lhsNonContracting := [0]
  rhsNonContracting := [1]
  lhsBatch := []
  rhsBatch := []
  wf := dot_S5000x37_S37x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S5000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S37x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S1000x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S1000x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v93) S1000x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1000x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v95) S1000x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v96) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v97) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v98) S1000x64.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x37 : Shape := ⟨2, ![50000, 37]⟩
abbrev S2x600000 : Shape := ⟨2, ![2, 600000]⟩
abbrev S50000 : Shape := ⟨1, ![50000]⟩
abbrev S37x64 : Shape := ⟨2, ![37, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x64 : Shape := ⟨2, ![50000, 64]⟩
abbrev S650000x64 : Shape := ⟨2, ![650000, 64]⟩
abbrev S1x64 : Shape := ⟨2, ![1, 64]⟩
abbrev S50000x128 : Shape := ⟨2, ![50000, 128]⟩
abbrev S650000x128 : Shape := ⟨2, ![650000, 128]⟩
abbrev S1x128 : Shape := ⟨2, ![1, 128]⟩
abbrev S1000x64 : Shape := ⟨2, ![1000, 64]⟩
abbrev S50000x1 : Shape := ⟨2, ![50000, 1]⟩
abbrev S1000 : Shape := ⟨1, ![1000]⟩
abbrev S1000x1 : Shape := ⟨2, ![1000, 1]⟩
abbrev S1000x128 : Shape := ⟨2, ![1000, 128]⟩

abbrev nBuf : Space → Nat
  | .hbm => 186
  | .vmem => 0
  | .smem => 0
  | _ => 0

abbrev hbmTy0_0 (i : Nat) : BufTy := match i % 128 with
  | 0 => ⟨S50000x37, .f32⟩
  | 1 => ⟨S2x600000, .i32⟩
  | 2 => ⟨S50000, .i32⟩
  | 3 => ⟨S37x64, .f32⟩
  | 4 => ⟨S64, .f32⟩
  | 5 => ⟨S64x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x64, .f32⟩
  | 12 => ⟨S64, .f32⟩
  | 13 => ⟨S64, .f32⟩
  | 14 => ⟨S64, .f32⟩
  | 15 => ⟨S50000, .i32⟩
  | 16 => ⟨S1x600000, .i32⟩
  | 17 => ⟨S600000, .i32⟩
  | 18 => ⟨S650000, .i32⟩
  | 19 => ⟨S1x600000, .i32⟩
  | 20 => ⟨S600000, .i32⟩
  | 21 => ⟨S650000, .i32⟩
  | 22 => ⟨S_, .f32⟩
  | 23 => ⟨S650000, .f32⟩
  | 24 => ⟨S_, .f32⟩
  | 25 => ⟨S50000, .f32⟩
  | 26 => ⟨S650000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000, .f32⟩
  | 57 => ⟨S650000, .f32⟩
  | 58 => ⟨S50000x64, .f32⟩
  | 59 => ⟨S_, .i32⟩
  | 60 => ⟨S650000, .i32⟩
  | 61 => ⟨S650000, .i1⟩
  | 62 => ⟨S_, .i32⟩
  | 63 => ⟨S650000, .i32⟩
  | 64 => ⟨S650000, .i32⟩
  | 65 => ⟨S650000, .i32⟩
  | 66 => ⟨S650000x1, .i32⟩
  | 67 => ⟨S650000x64, .f32⟩
  | 68 => ⟨S650000x1, .f32⟩
  | 69 => ⟨S650000x64, .f32⟩
  | 70 => ⟨S650000x64, .f32⟩
  | 71 => ⟨S_, .f32⟩
  | 72 => ⟨S50000x64, .f32⟩
  | 73 => ⟨S650000x1, .i32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S50000x128, .f32⟩
  | 82 => ⟨S_, .i32⟩
  | 83 => ⟨S650000, .i32⟩
  | 84 => ⟨S650000, .i1⟩
  | 85 => ⟨S_, .i32⟩
  | 86 => ⟨S650000, .i32⟩
  | 87 => ⟨S650000, .i32⟩
  | 88 => ⟨S650000, .i32⟩
  | 89 => ⟨S650000x1, .i32⟩
  | 90 => ⟨S650000x128, .f32⟩
  | 91 => ⟨S650000x1, .f32⟩
  | 92 => ⟨S650000x128, .f32⟩
  | 93 => ⟨S650000x128, .f32⟩
  | 94 => ⟨S_, .f32⟩
  | 95 => ⟨S50000x128, .f32⟩
  | 96 => ⟨S650000x1, .i32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x64, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000x64, .f32⟩
  | 114 => ⟨S650000x1, .f32⟩
  | 115 => ⟨S650000x64, .f32⟩
  | 116 => ⟨S650000x64, .f32⟩
  | 117 => ⟨S_, .f32⟩
  | 118 => ⟨S50000x64, .f32⟩
  | 119 => ⟨S650000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x37, .f32⟩

abbrev hbmTy0_1 (i : Nat) : BufTy := match i % 128 with
  | 0 => ⟨S1000x64, .f32⟩
  | 1 => ⟨S50000x1, .i32⟩
  | 2 => ⟨S1000x64, .f32⟩
  | 3 => ⟨S_, .f32⟩
  | 4 => ⟨S50000, .f32⟩
  | 5 => ⟨S_, .f32⟩
  | 6 => ⟨S1000, .f32⟩
  | 7 => ⟨S50000x1, .i32⟩
  | 8 => ⟨S1000, .f32⟩
  | 9 => ⟨S_, .f32⟩
  | 10 => ⟨S1000, .f32⟩
  | 11 => ⟨S1000, .f32⟩
  | 12 => ⟨S1000x1, .f32⟩
  | 13 => ⟨S1000x64, .f32⟩
  | 14 => ⟨S1000x64, .f32⟩
  | 15 => ⟨S1000x128, .f32⟩
  | 16 => ⟨S1x128, .f32⟩
  | 17 => ⟨S1000x128, .f32⟩
  | 18 => ⟨S1000x128, .f32⟩
  | 19 => ⟨S_, .f32⟩
  | 20 => ⟨S1000x128, .f32⟩
  | 21 => ⟨S1000x128, .f32⟩
  | 22 => ⟨S1000x64, .f32⟩
  | 23 => ⟨S1x64, .f32⟩
  | 24 => ⟨S1000x64, .f32⟩
  | 25 => ⟨S1000x64, .f32⟩
  | 26 => ⟨S_, .f32⟩
  | 27 => ⟨S1000x64, .f32⟩
  | 28 => ⟨S1000x64, .f32⟩
  | 29 => ⟨S_, .f32⟩
  | 30 => ⟨S1000, .f32⟩
  | 31 => ⟨S1000x1, .f32⟩
  | 32 => ⟨S_, .f32⟩
  | 33 => ⟨S1000x1, .f32⟩
  | 34 => ⟨S1000x1, .f32⟩
  | 35 => ⟨S1000x64, .f32⟩
  | 36 => ⟨S1000x64, .f32⟩
  | 37 => ⟨S1000x64, .f32⟩
  | 38 => ⟨S_, .f32⟩
  | 39 => ⟨S1000, .f32⟩
  | 40 => ⟨S1000x1, .f32⟩
  | 41 => ⟨S_, .f32⟩
  | 42 => ⟨S1000x1, .f32⟩
  | 43 => ⟨S1000x1, .f32⟩
  | 44 => ⟨S1000x64, .f32⟩
  | 45 => ⟨S1000x64, .f32⟩
  | 46 => ⟨S_, .f32⟩
  | 47 => ⟨S1000x1, .f32⟩
  | 48 => ⟨S1000x1, .f32⟩
  | 49 => ⟨S1000x1, .f32⟩
  | 50 => ⟨S1000x64, .f32⟩
  | 51 => ⟨S1000x64, .f32⟩
  | 52 => ⟨S1x64, .f32⟩
  | 53 => ⟨S1000x64, .f32⟩
  | 54 => ⟨S1000x64, .f32⟩
  | 55 => ⟨S1x64, .f32⟩
  | 56 => ⟨S1000x64, .f32⟩
  | 57 => ⟨S1000x64, .f32⟩
  | _ => ⟨S50000x37, .f32⟩

abbrev hbmTy (i : Nat) : BufTy := match i / 128 with
  | 0 => hbmTy0_0 i
  | 1 => hbmTy0_1 i
  | _ => ⟨S50000x37, .f32⟩

abbrev bufTy : (tb : Table) → Fin (tcTables nBuf tb) → BufTy
  | .hbm, ⟨i, _⟩ => hbmTy i
  | _, _ => ⟨S50000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call3_cst : Ref sig .tc := ⟨.hbm, 124, rfl⟩
abbrev main_call3_v0 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call4_cst : Ref sig .tc := ⟨.hbm, 147, rfl⟩
abbrev main_call4_v0 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call5_cst : Ref sig .tc := ⟨.hbm, 154, rfl⟩
abbrev main_call5_v0 : Ref sig .tc := ⟨.hbm, 155, rfl⟩
abbrev main_v107 : Ref sig .tc := ⟨.hbm, 156, rfl⟩
abbrev main_cst_20 : Ref sig .tc := ⟨.hbm, 157, rfl⟩
abbrev main_v108 : Ref sig .tc := ⟨.hbm, 158, rfl⟩
abbrev main_v109 : Ref sig .tc := ⟨.hbm, 159, rfl⟩
abbrev main_cst_21 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_22 : Ref sig .tc := ⟨.hbm, 166, rfl⟩
abbrev main_v115 : Ref sig .tc := ⟨.hbm, 167, rfl⟩
abbrev main_v116 : Ref sig .tc := ⟨.hbm, 168, rfl⟩
abbrev main_cst_23 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_24 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S1x64_S1000x64_0_1 : S1x64.BroadcastsInDim S1000x64 (![0, 1] : Fin 2 → Fin S1000x64.rank)
  reducesTo_S1000x64_S1000_d1 : S1000x64.ReducesTo [1] S1000
  h_S_ : 0 < S_.numel
  bcast_S_S1000x1 : S_.BroadcastsInDim S1000x1 (![] : Fin 0 → Fin S1000x1.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x37_S37x64_S50000x64_1_0_0_1_n_n_wf : DotDims.WF S50000x37 S37x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x128_S50000x128_1_0_0_1_n_n_wf : DotDims.WF S50000x64 S64x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  scatter_S1000x64_S50000x1_S50000x64_1_0_0_1_wf : ScatterDims.WF S1000x64 S50000x1 S50000x64 [1] [0] [0] 1
  scatter_S1000_S50000x1_S50000_n_0_0_1_wf : ScatterDims.WF S1000 S50000x1 S50000 [] [0] [0] 1
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x37_S37x64_S50000x64_1_0_0_1_n_n : DotDims S50000x37 S37x64 S50000x64 where
  lhsContracting := [1]
  rhsContracting := [0]
  lhsNonContracting := [0]
  rhsNonContracting := [1]
  lhsBatch := []
  rhsBatch := []
  wf := dot_S50000x37_S37x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

class Facts : Prop extends Facts₀ where

variable [Facts]
-- ==== Proof.KRun.lean ====
/-
  The idealized kernel's run, with EVERY unscoped buffer of the final state named.

  @main is eighteen segments: stretches of host operations and nine pallas_call regions.  The buffer contents at the
  segment boundaries form a fold from the launch memory (`Gen.W0` … `Gen.W18`): a stretch applies its operations, a
  region replaces its arrays by what its write-backs leave.  Every weakly fair execution terminates, nothing faulting,
  in a state whose unscoped buffers hold `Gen.W18`; the result array `main_v98` is one of them.
-/
import proofs.«168961_j42296837931533_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each unscoped buffer of core `c` at the
    last boundary's contents `W18 m ρ c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

end Cert.KernelIdeal.KRun

end
-- ==== Proof.Spec.lean ====
/-
  The layers of the network as functions on arrays of extended reals, entry by entry.

  * `dense x w`       — the matrix product: entry `(r, j)` is the sum over `q` of `x (r, q) · w (q, j)`.
  * `biasRelu a b`    — a bias vector added to every row, then the maximum with zero.
  * `layerNorm x g b` — each row centred by its mean and scaled by the reciprocal square root of its variance plus
                        a small constant, then an affine map per column.  The mean and the variance are sums over
                        the row divided by the literal 64 (the row length of the one place it is used), each sum
                        started from the literal zero, exactly as both programs compute them.
  The literals are kept as bit patterns read at the ideal instance; nothing here evaluates them.
-/
import Idealize.ShloMosaic.Lib.ValueIdx
import Idealize.ShloMosaic.PureOps.Ideal

noncomputable section

namespace Cert.Spec

open Idealize.ShloMosaic Idealize.ShloMosaic.ValueIdx

variable {m k n : Nat}

/-- The literal `0.0`. -/
abbrev zeroW : EReal := Ideal.ofBits .f32 0x00000000#32
/-- The literal `64.0`. -/
abbrev w64 : EReal := Ideal.ofBits .f32 0x42800000#32
/-- The literal the variance is offset by (the f32 nearest to 1e-5). -/
abbrev epsW : EReal := Ideal.ofBits .f32 0x3727C5AC#32

/-- Row coordinate of an index of an `[m, n]` array. -/
abbrev row (i : (⟨2, ![m, n]⟩ : Shape).Idx) : Fin m := ⟨(i 0).val, idx2_lt0 i⟩
/-- Column coordinate of an index of an `[m, n]` array. -/
abbrev col (i : (⟨2, ![m, n]⟩ : Shape).Idx) : Fin n := ⟨(i 1).val, idx2_lt1 i⟩

/-- The matrix product. -/
def dense (x : (⟨2, ![m, k]⟩ : Shape).Idx → EReal) (w : (⟨2, ![k, n]⟩ : Shape).Idx → EReal) :
    (⟨2, ![m, n]⟩ : Shape).Idx → EReal :=
  fun i => ∑ q : Fin k, x (ix2 (row i) q) * w (ix2 q (col i))

/-- A bias vector added to every row, then the rectifier. -/
def biasRelu (a : (⟨2, ![m, n]⟩ : Shape).Idx → EReal) (b : Fin n → EReal) : (⟨2, ![m, n]⟩ : Shape).Idx → EReal :=
  fun i => max (a i + b (col i)) zeroW

/-- The mean of row `r`: the row's sum, started from the literal zero, divided by the literal 64. -/
def rowMean (x : (⟨2, ![m, n]⟩ : Shape).Idx → EReal) (r : Fin m) : EReal :=
  Ideal.div (zeroW + ∑ q : Fin n, x (ix2 r q)) w64

/-- The variance of row `r`: the sum of the squared deviations from the mean, started from zero, divided by 64. -/
def rowVar (x : (⟨2, ![m, n]⟩ : Shape).Idx → EReal) (r : Fin m) : EReal :=
  Ideal.div (zeroW + ∑ q : Fin n, (x (ix2 r q) - rowMean x r) * (x (ix2 r q) - rowMean x r)) w64

/-- Layer normalisation of every row followed by the affine map `· g + b` per column. -/
def layerNorm (x : (⟨2, ![m, n]⟩ : Shape).Idx → EReal) (g b : Fin n → EReal) : (⟨2, ![m, n]⟩ : Shape).Idx → EReal :=
  fun i => (x i - rowMean x (row i)) * Ideal.rsqrt (rowVar x (row i) + epsW) * g (col i) + b (col i)

/-- At an index written by coordinates the row and column are the coordinates. -/
theorem dense_ix2 (x : (⟨2, ![m, k]⟩ : Shape).Idx → EReal) (w : (⟨2, ![k, n]⟩ : Shape).Idx → EReal) (p : Fin m) (j : Fin n) :
    dense x w (ix2 p j) = ∑ q : Fin k, x (ix2 p q) * w (ix2 q j) := rfl

theorem biasRelu_ix2 (a : (⟨2, ![m, n]⟩ : Shape).Idx → EReal) (b : Fin n → EReal) (p : Fin m) (j : Fin n) :
    biasRelu a b (ix2 p j) = max (a (ix2 p j) + b j) zeroW := rfl

theorem layerNorm_ix2 (x : (⟨2, ![m, n]⟩ : Shape).Idx → EReal) (g b : Fin n → EReal) (p : Fin m) (j : Fin n) :
    layerNorm x g b (ix2 p j) = (x (ix2 p j) - rowMean x p) * Ideal.rsqrt (rowVar x p + epsW) * g j + b j := rfl

end Cert.Spec

end
-- ==== Proof.RefGlue.lean ====
/-
  The reference's host stages between the dense layers, each as a function of the ONE array it transforms, and the
  whole network as one composition.

  Every graph-convolution layer gathers the rows of the transformed features at the edges' source nodes, scales each
  gathered row by the edge's normalisation coefficient and adds the rows up at the edges' target nodes (`agg…`); the
  pooling stage adds the node features up per graph and divides by the clamped node count (`pool`).  The edge lists and
  the coefficients depend on the edge index array only, the counts on the batch array only; those parts are the stages
  the reference's run already names, so each function below differs from the reference's own stage only in taking the
  transformed array as an argument.
-/
import proofs.«168961_j42296837931533_1_alg».proof.Proof.RefRead
import proofs.«168961_j42296837931533_1_alg».proof.Proof.Spec

set_option maxRecDepth 16384

noncomputable section

namespace Cert.ReferenceIdeal.Glue

open Cert.ReferenceIdeal Cert.ReferenceIdeal.ReadP Idealize.ShloMosaic Idealize.ShloMosaic.ValueIdx

/-- Layer 1's aggregation of a [50000, 64] feature array over the edges. -/
def agg1 (x1 : (⟨S2x600000, .i32⟩ : BufTy).Contents (Elt Ideal)) (h : (⟨S50000x64, .f32⟩ : BufTy).Contents (Elt Ideal)) : (⟨S50000x64, .f32⟩ : BufTy).Contents (Elt Ideal) :=
  Host.scatterAdd (F := Ideal) (φ := .f32) scatter_S50000x64_S650000x1_S650000x64_1_0_0_1 (val_main_v43 (F := Ideal)) (val_main_v44 (F := Ideal) x1)
    (mulf (F := Ideal) (φ := .f32) (Host.gather gather_S50000x64_S650000x1_S650000x64_1_0_n_n_0_1_164 h (val_main_v38 (F := Ideal) x1)) (val_main_v41 (F := Ideal) x1))

/-- Layer 2's aggregation of a [50000, 128] feature array over the edges. -/
def agg2 (x1 : (⟨S2x600000, .i32⟩ : BufTy).Contents (Elt Ideal)) (h : (⟨S50000x128, .f32⟩ : BufTy).Contents (Elt Ideal)) : (⟨S50000x128, .f32⟩ : BufTy).Contents (Elt Ideal) :=
  Host.scatterAdd (F := Ideal) (φ := .f32) scatter_S50000x128_S650000x1_S650000x128_1_0_0_1 (val_main_v61 (F := Ideal)) (val_main_v62 (F := Ideal) x1)
    (mulf (F := Ideal) (φ := .f32) (Host.gather gather_S50000x128_S650000x1_S650000x128_1_0_n_n_0_1_1128 h (val_main_v56 (F := Ideal) x1)) (val_main_v59 (F := Ideal) x1))

/-- Layer 3's aggregation of a [50000, 64] feature array over the edges. -/
def agg3 (x1 : (⟨S2x600000, .i32⟩ : BufTy).Contents (Elt Ideal)) (h : (⟨S50000x64, .f32⟩ : BufTy).Contents (Elt Ideal)) : (⟨S50000x64, .f32⟩ : BufTy).Contents (Elt Ideal) :=
  Host.scatterAdd (F := Ideal) (φ := .f32) scatter_S50000x64_S650000x1_S650000x64_1_0_0_1 (val_main_v79 (F := Ideal)) (val_main_v80 (F := Ideal) x1)
    (mulf (F := Ideal) (φ := .f32) (Host.gather gather_S50000x64_S650000x1_S650000x64_1_0_n_n_0_1_164 h (val_main_v74 (F := Ideal) x1)) (val_main_v77 (F := Ideal) x1))

/-- The mean of the node features per graph: the sums per graph divided by the node counts clamped below by one. -/
def pool (x2 : (⟨S50000, .i32⟩ : BufTy).Contents (Elt Ideal)) (h : (⟨S50000x64, .f32⟩ : BufTy).Contents (Elt Ideal)) : (⟨S1000x64, .f32⟩ : BufTy).Contents (Elt Ideal) :=
  Host.divf (F := Ideal) (φ := .f32) (Host.scatterAdd (F := Ideal) (φ := .f32) scatter_S1000x64_S50000x1_S50000x64_1_0_0_1 (val_main_v86 (F := Ideal)) (val_main_v87 (F := Ideal) x2) h)
    (val_main_v96 (F := Ideal) x2)

/-- The reference's stages are these functions of the transformed arrays (each side unfolds to the same operations). -/
theorem v45_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) :
    val_main_v45 (F := Ideal) x0 x1 x3 = agg1 x1 (val_main_v32 (F := Ideal) x0 x3) := rfl

theorem v63_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) :
    val_main_v63 (F := Ideal) x0 x1 x3 x4 x5 = agg2 x1 (val_main_v50 (F := Ideal) x0 x1 x3 x4 x5) := rfl

theorem v81_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) :
    val_main_v81 (F := Ideal) x0 x1 x3 x4 x5 x6 x7 = agg3 x1 (val_main_v68 (F := Ideal) x0 x1 x3 x4 x5 x6 x7) := rfl

theorem v97_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) :
    val_main_v97 (F := Ideal) x0 x1 x2 x3 x4 x5 x6 x7 x8 = pool x2 (val_main_v85 (F := Ideal) x0 x1 x3 x4 x5 x6 x7 x8) := rfl

/-- The whole network on the extended reals: three graph-convolution layers (dense, aggregate, bias and rectifier), the
    pooling, two dense layers with bias and rectifier, and the layer normalisation. -/
def Net (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) (x12 x13 x14 : (⟨S64, .f32⟩ : BufTy).Contents (Elt Ideal)) : (⟨S1000x64, .f32⟩ : BufTy).Contents (Elt Ideal) :=
  Cert.Spec.layerNorm
    (Cert.Spec.biasRelu (Cert.Spec.dense
      (Cert.Spec.biasRelu (Cert.Spec.dense
        (pool x2
          (Cert.Spec.biasRelu (agg3 x1 (Cert.Spec.dense
            (Cert.Spec.biasRelu (agg2 x1 (Cert.Spec.dense
              (Cert.Spec.biasRelu (agg1 x1 (Cert.Spec.dense x0 x3)) (fun j => x4 (ix1 j)))
              x5)) (fun j => x6 (ix1 j)))
            x7)) (fun j => x8 (ix1 j))))
        x9) (fun j => x10 (ix1 j)))
      x11) (fun j => x12 (ix1 j)))
    (fun j => x13 (ix1 j)) (fun j => x14 (ix1 j))

end Cert.ReferenceIdeal.Glue

end
-- ==== Proof.KStageA.lean ====
/-
  The kernel program's first host operations against the reference's stages.

  Both programs begin with the same operations on the edge list: the row and the column indices, each extended by
  the self loops; the degree of every node as a scatter-add of ones; its reciprocal square root where the degree is
  positive and zero elsewhere; and the coefficient of every edge, the product of that quantity at its two ends.  The
  two texts are the same operations over shape names and index records declared once per program with equal
  bodies, so each buffer the kernel program's first stretches leave is, as a term of the launch contents of the
  edge list, the reference's stage of the same number.
-/
import proofs.«168961_j42296837931533_1_alg».proof.Proof.Gen.KernelIdeal.Frame
import proofs.«168961_j42296837931533_1_alg».proof.Proof.RefRead
import Idealize.ShloMosaic.Lib.StableHlo.Run

set_option maxRecDepth 16384

noncomputable section

namespace Cert.KernelIdeal.KStageA

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The edge list's buffer at launch is the launch memory's. -/
theorem w0_arg1 (c : Dev nD) : W0 m ρ c (Proc.devRef .tc main_arg1) = m ((c : Thread nD τ).loc main_arg1) := rfl

set_option maxHeartbeats 400000 in
/-- After the first stretch the row indices with the self loops appended are the reference's stage 3. -/
theorem w1_v3 (c : Dev nD) :
    W1 m ρ c (Proc.devRef .tc main_v3)
      = Cert.ReferenceIdeal.ReadP.val_main_v3 (F := Ideal) (m ((c : Thread nD τ).loc main_arg1)) := by
  show StableHlo.after hostOps0 (W0 m ρ c) (Proc.devRef .tc main_v3)
    = Cert.ReferenceIdeal.ReadP.val_main_v3 (F := Ideal) (W0 m ρ c (Proc.devRef .tc main_arg1))
  after_results
  generalize W0 m ρ c (Proc.devRef .tc main_arg1) = x1
  rfl

set_option maxHeartbeats 400000 in
/-- After the first stretch the column indices with the self loops appended are the reference's stage 6. -/
theorem w1_v6 (c : Dev nD) :
    W1 m ρ c (Proc.devRef .tc main_v6)
      = Cert.ReferenceIdeal.ReadP.val_main_v6 (F := Ideal) (m ((c : Thread nD τ).loc main_arg1)) := by
  show StableHlo.after hostOps0 (W0 m ρ c) (Proc.devRef .tc main_v6)
    = Cert.ReferenceIdeal.ReadP.val_main_v6 (F := Ideal) (W0 m ρ c (Proc.devRef .tc main_arg1))
  after_results
  generalize W0 m ρ c (Proc.devRef .tc main_arg1) = x1
  rfl

set_option maxHeartbeats 400000 in
/-- The next two stretches write neither index list. -/
theorem k3 (c : Dev nD) :
    W3 m ρ c (Proc.devRef .tc main_v3)
      = Cert.ReferenceIdeal.ReadP.val_main_v3 (F := Ideal) (m ((c : Thread nD τ).loc main_arg1)) := by
  refine Eq.trans ?_ (w1_v3 m ρ c)
  show StableHlo.after hostOps0_2 (StableHlo.after hostOps0_1 (W1 m ρ c)) (Proc.devRef .tc main_v3) = _
  rw [StableHlo.after_of_forall_not_mem (b := Proc.devRef .tc main_v3) hostOps0_2 _ (List.forall_iff_forall_mem.mp (by
        simp only [hostOps0_2, List.Forall, StableHlo.nullary_writes, StableHlo.unary_writes, StableHlo.binary_writes, StableHlo.ternary_writes, StableHlo.reshape_writes, Finset.mem_singleton]
        repeat' apply And.intro
        all_goals exact StableHlo.devRef_ne_of_ne (by decide))),
    StableHlo.after_of_forall_not_mem (b := Proc.devRef .tc main_v3) hostOps0_1 _ (List.forall_iff_forall_mem.mp (by
        simp only [hostOps0_1, List.Forall, StableHlo.nullary_writes, StableHlo.unary_writes, StableHlo.binary_writes, StableHlo.ternary_writes, StableHlo.reshape_writes, Finset.mem_singleton]
        repeat' apply And.intro
        all_goals exact StableHlo.devRef_ne_of_ne (by decide)))]

set_option maxHeartbeats 400000 in
theorem k6 (c : Dev nD) :
    W3 m ρ c (Proc.devRef .tc main_v6)
      = Cert.ReferenceIdeal.ReadP.val_main_v6 (F := Ideal) (m ((c : Thread nD τ).loc main_arg1)) := by
  refine Eq.trans ?_ (w1_v6 m ρ c)
  show StableHlo.after hostOps0_2 (StableHlo.after hostOps0_1 (W1 m ρ c)) (Proc.devRef .tc main_v6) = _
  rw [StableHlo.after_of_forall_not_mem (b := Proc.devRef .tc main_v6) hostOps0_2 _ (List.forall_iff_forall_mem.mp (by
        simp only [hostOps0_2, List.Forall, StableHlo.nullary_writes, StableHlo.unary_writes, StableHlo.binary_writes, StableHlo.ternary_writes, StableHlo.reshape_writes, Finset.mem_singleton]
        repeat' apply And.intro
        all_goals exact StableHlo.devRef_ne_of_ne (by decide))),
    StableHlo.after_of_forall_not_mem (b := Proc.devRef .tc main_v6) hostOps0_1 _ (List.forall_iff_forall_mem.mp (by
        simp only [hostOps0_1, List.Forall, StableHlo.nullary_writes, StableHlo.unary_writes, StableHlo.binary_writes, StableHlo.ternary_writes, StableHlo.reshape_writes, Finset.mem_singleton]
        repeat' apply And.intro
        all_goals exact StableHlo.devRef_ne_of_ne (by decide)))]

set_option maxHeartbeats 400000 in
/-- After the first stretch the degree vector — the scatter-add of ones at the column indices — is the reference's stage 10. -/
theorem w1_v10 (c : Dev nD) :
    W1 m ρ c (Proc.devRef .tc main_v10)
      = Cert.ReferenceIdeal.ReadP.val_main_v10 (F := Ideal) (m ((c : Thread nD τ).loc main_arg1)) := by
  show StableHlo.after hostOps0 (W0 m ρ c) (Proc.devRef .tc main_v10)
    = Cert.ReferenceIdeal.ReadP.val_main_v10 (F := Ideal) (W0 m ρ c (Proc.devRef .tc main_arg1))
  after_results
  generalize W0 m ρ c (Proc.devRef .tc main_arg1) = x1
  have hsc : (scatter_S50000_S650000x1_S650000_n_0_0_1 : ScatterDims S50000 S650000x1 S650000)
      = Cert.ReferenceIdeal.scatter_S50000_S650000x1_S650000_n_0_0_1 := rfl
  unfold Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0
  rfl

set_option maxHeartbeats 400000 in
/-- After the first stretch the mask "the degree is positive" is the reference's stage 12. -/
theorem w1_v12 (c : Dev nD) :
    W1 m ρ c (Proc.devRef .tc main_v12)
      = Cert.ReferenceIdeal.ReadP.val_main_v12 (F := Ideal) (m ((c : Thread nD τ).loc main_arg1)) := by
  show StableHlo.after hostOps0 (W0 m ρ c) (Proc.devRef .tc main_v12)
    = Cert.ReferenceIdeal.ReadP.val_main_v12 (F := Ideal) (W0 m ρ c (Proc.devRef .tc main_arg1))
  after_results
  generalize W0 m ρ c (Proc.devRef .tc main_arg1) = x1
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0
  rfl

set_option maxHeartbeats 400000 in
/-- After the first stretch the reciprocal square root of the degree, the degree kept above a tiny literal, is the
    reference's stage 15. -/
theorem w1_v15 (c : Dev nD) :
    W1 m ρ c (Proc.devRef .tc main_v15)
      = Cert.ReferenceIdeal.ReadP.val_main_v15 (F := Ideal) (m ((c : Thread nD τ).loc main_arg1)) := by
  show StableHlo.after hostOps0 (W0 m ρ c) (Proc.devRef .tc main_v15)
    = Cert.ReferenceIdeal.ReadP.val_main_v15 (F := Ideal) (W0 m ρ c (Proc.devRef .tc main_arg1))
  after_results
  generalize W0 m ρ c (Proc.devRef .tc main_arg1) = x1
  unfold Cert.ReferenceIdeal.ReadP.val_main_v15 Cert.ReferenceIdeal.ReadP.val_main_v14 Cert.ReferenceIdeal.ReadP.val_main_v13 Cert.ReferenceIdeal.ReadP.val_main_cst_2 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0
  rfl

set_option maxHeartbeats 400000 in
/-- After the first stretch the scalar the outlined selection starts from is the literal zero. -/
theorem w1_cst_3 (c : Dev nD) :
    W1 m ρ c (Proc.devRef .tc main_cst_3) = Cert.ReferenceIdeal.ReadP.val_main_cst_3 (F := Ideal) := by
  show StableHlo.after hostOps0 (W0 m ρ c) (Proc.devRef .tc main_cst_3) = _
  after_results
  rfl

set_option maxHeartbeats 400000 in
/-- After the second stretch — the outlined selection — the normalising factor of every node (the reciprocal
    square root where the degree is positive, zero elsewhere) is the reference's stage 16. -/
theorem w2_v16 (c : Dev nD) :
    W2 m ρ c (Proc.devRef .tc main_v16)
      = Cert.ReferenceIdeal.ReadP.val_main_v16 (F := Ideal) (m ((c : Thread nD τ).loc main_arg1)) := by
  have h12 := w1_v12 m ρ c
  have h15 := w1_v15 m ρ c
  have h3 := w1_cst_3 m ρ c
  show StableHlo.after hostOps0_1 (W1 m ρ c) (Proc.devRef .tc main_v16) = _
  generalize W1 m ρ c = V1 at h12 h15 h3 ⊢
  after_results
  rw [h12, h15, h3]
  generalize m ((c : Thread nD τ).loc main_arg1) = x1
  unfold Cert.ReferenceIdeal.ReadP.val_main_v16 Cert.ReferenceIdeal.ReadP.val_main_call0_v1 Cert.ReferenceIdeal.ReadP.val_main_call0_v0
  generalize Cert.ReferenceIdeal.ReadP.val_main_v12 (F := Ideal) x1 = a
  generalize Cert.ReferenceIdeal.ReadP.val_main_v15 (F := Ideal) x1 = b
  generalize Cert.ReferenceIdeal.ReadP.val_main_cst_3 (F := Ideal) = z
  rfl

set_option maxHeartbeats 400000 in
/-- The second stretch writes neither index list. -/
theorem w2_v3 (c : Dev nD) :
    W2 m ρ c (Proc.devRef .tc main_v3)
      = Cert.ReferenceIdeal.ReadP.val_main_v3 (F := Ideal) (m ((c : Thread nD τ).loc main_arg1)) := by
  refine Eq.trans ?_ (w1_v3 m ρ c)
  show StableHlo.after hostOps0_1 (W1 m ρ c) (Proc.devRef .tc main_v3) = _
  rw [StableHlo.after_of_forall_not_mem (b := Proc.devRef .tc main_v3) hostOps0_1 _ (List.forall_iff_forall_mem.mp (by
        simp only [hostOps0_1, List.Forall, StableHlo.nullary_writes, StableHlo.unary_writes, StableHlo.binary_writes, StableHlo.ternary_writes, StableHlo.reshape_writes, Finset.mem_singleton]
        repeat' apply And.intro
        all_goals exact StableHlo.devRef_ne_of_ne (by decide)))]

set_option maxHeartbeats 400000 in
theorem w2_v6 (c : Dev nD) :
    W2 m ρ c (Proc.devRef .tc main_v6)
      = Cert.ReferenceIdeal.ReadP.val_main_v6 (F := Ideal) (m ((c : Thread nD τ).loc main_arg1)) := by
  refine Eq.trans ?_ (w1_v6 m ρ c)
  show StableHlo.after hostOps0_1 (W1 m ρ c) (Proc.devRef .tc main_v6) = _
  rw [StableHlo.after_of_forall_not_mem (b := Proc.devRef .tc main_v6) hostOps0_1 _ (List.forall_iff_forall_mem.mp (by
        simp only [hostOps0_1, List.Forall, StableHlo.nullary_writes, StableHlo.unary_writes, StableHlo.binary_writes, StableHlo.ternary_writes, StableHlo.reshape_writes, Finset.mem_singleton]
        repeat' apply And.intro
        all_goals exact StableHlo.devRef_ne_of_ne (by decide)))]

set_option maxHeartbeats 400000 in
/-- After the third stretch the coefficient of every edge — the normalising factor gathered at the edge's row
    index times the factor gathered at its column index, negative indices wrapped — is the reference's stage 31. -/
theorem k31 (c : Dev nD) :
    W3 m ρ c (Proc.devRef .tc main_v31)
      = Cert.ReferenceIdeal.ReadP.val_main_v31 (F := Ideal) (m ((c : Thread nD τ).loc main_arg1)) := by
  have h3 := w2_v3 m ρ c
  have h6 := w2_v6 m ρ c
  have h16 := w2_v16 m ρ c
  show StableHlo.after hostOps0_2 (W2 m ρ c) (Proc.devRef .tc main_v31) = _
  generalize W2 m ρ c = V2 at h3 h6 h16 ⊢
  after_results_simp
  rw [h3, h6, h16]
  generalize m ((c : Thread nD τ).loc main_arg1) = x1
  unfold Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_c_6 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_c_4 Cert.ReferenceIdeal.ReadP.val_main_v18 Cert.ReferenceIdeal.ReadP.val_main_v17 Cert.ReferenceIdeal.ReadP.val_main_c
  generalize Cert.ReferenceIdeal.ReadP.val_main_v3 (F := Ideal) x1 = a3
  generalize Cert.ReferenceIdeal.ReadP.val_main_v6 (F := Ideal) x1 = a6
  generalize Cert.ReferenceIdeal.ReadP.val_main_v16 (F := Ideal) x1 = a16
  rfl

end Cert.KernelIdeal.KStageA

end
-- ==== Proof.KKeep.lean ====
/-
  Buffers that later segments of the idealized kernel's @main read, at the boundaries where they are read.

  No region and no stretch of host operations writes an argument array, nor the edge lists or the edge coefficients
  once the first stretches have written them; so each of them, read at a later boundary of the fold of buffer
  contents, is what it was: one step per boundary in between (a stretch that does not write the buffer, or a region
  none of whose arrays it is).
-/
import proofs.«168961_j42296837931533_1_alg».proof.Proof.Gen.KernelIdeal.Frame
import proofs.«168961_j42296837931533_1_alg».proof.Proof.KStageA

set_option maxRecDepth 16384

noncomputable section

namespace Cert.KernelIdeal.KKeep

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A stretch of host operations leaves a buffer it does not write as it was. -/
macro "keep_tac " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The argument arrays at the boundaries where they are read -/

theorem A_0 (c : Dev nD) : W3 m ρ c (Proc.devRef .tc main_arg0) = m ((c : Thread nD τ).loc main_arg0) :=
  ((by keep_tac hostOps0_2 : W3 m ρ c (Proc.devRef .tc main_arg0) = W2 m ρ c (Proc.devRef .tc main_arg0)).trans
  ((by keep_tac hostOps0_1 : W2 m ρ c (Proc.devRef .tc main_arg0) = W1 m ρ c (Proc.devRef .tc main_arg0)).trans
  ((by keep_tac hostOps0 : W1 m ρ c (Proc.devRef .tc main_arg0) = W0 m ρ c (Proc.devRef .tc main_arg0)).trans rfl)))

theorem A_3 (c : Dev nD) : W3 m ρ c (Proc.devRef .tc main_arg3) = m ((c : Thread nD τ).loc main_arg3) :=
  ((by keep_tac hostOps0_2 : W3 m ρ c (Proc.devRef .tc main_arg3) = W2 m ρ c (Proc.devRef .tc main_arg3)).trans
  ((by keep_tac hostOps0_1 : W2 m ρ c (Proc.devRef .tc main_arg3) = W1 m ρ c (Proc.devRef .tc main_arg3)).trans
  ((by keep_tac hostOps0 : W1 m ρ c (Proc.devRef .tc main_arg3) = W0 m ρ c (Proc.devRef .tc main_arg3)).trans rfl)))

theorem A_4 (c : Dev nD) : W4 m ρ c (Proc.devRef .tc main_arg4) = m ((c : Thread nD τ).loc main_arg4) :=
  ((W4_of_ne m ρ c main_arg4 (by decide)).trans
  ((by keep_tac hostOps0_2 : W3 m ρ c (Proc.devRef .tc main_arg4) = W2 m ρ c (Proc.devRef .tc main_arg4)).trans
  ((by keep_tac hostOps0_1 : W2 m ρ c (Proc.devRef .tc main_arg4) = W1 m ρ c (Proc.devRef .tc main_arg4)).trans
  ((by keep_tac hostOps0 : W1 m ρ c (Proc.devRef .tc main_arg4) = W0 m ρ c (Proc.devRef .tc main_arg4)).trans rfl))))

theorem A_5 (c : Dev nD) : W6 m ρ c (Proc.devRef .tc main_arg5) = m ((c : Thread nD τ).loc main_arg5) :=
  ((W6_of_ne m ρ c main_arg5 (by decide)).trans
  ((by keep_tac hostOps1 : W5 m ρ c (Proc.devRef .tc main_arg5) = W4 m ρ c (Proc.devRef .tc main_arg5)).trans
  ((W4_of_ne m ρ c main_arg5 (by decide)).trans
  ((by keep_tac hostOps0_2 : W3 m ρ c (Proc.devRef .tc main_arg5) = W2 m ρ c (Proc.devRef .tc main_arg5)).trans
  ((by keep_tac hostOps0_1 : W2 m ρ c (Proc.devRef .tc main_arg5) = W1 m ρ c (Proc.devRef .tc main_arg5)).trans
  ((by keep_tac hostOps0 : W1 m ρ c (Proc.devRef .tc main_arg5) = W0 m ρ c (Proc.devRef .tc main_arg5)).trans rfl))))))

theorem A_6 (c : Dev nD) : W7 m ρ c (Proc.devRef .tc main_arg6) = m ((c : Thread nD τ).loc main_arg6) :=
  ((W7_of_ne m ρ c main_arg6 (by decide)).trans
  ((W6_of_ne m ρ c main_arg6 (by decide)).trans
  ((by keep_tac hostOps1 : W5 m ρ c (Proc.devRef .tc main_arg6) = W4 m ρ c (Proc.devRef .tc main_arg6)).trans
  ((W4_of_ne m ρ c main_arg6 (by decide)).trans
  ((by keep_tac hostOps0_2 : W3 m ρ c (Proc.devRef .tc main_arg6) = W2 m ρ c (Proc.devRef .tc main_arg6)).trans
  ((by keep_tac hostOps0_1 : W2 m ρ c (Proc.devRef .tc main_arg6) = W1 m ρ c (Proc.devRef .tc main_arg6)).trans
  ((by keep_tac hostOps0 : W1 m ρ c (Proc.devRef .tc main_arg6) = W0 m ρ c (Proc.devRef .tc main_arg6)).trans rfl)))))))

theorem A_7 (c : Dev nD) : W9 m ρ c (Proc.devRef .tc main_arg7) = m ((c : Thread nD τ).loc main_arg7) :=
  ((W9_of_ne m ρ c main_arg7 (by decide)).trans
  ((by keep_tac hostOps3 : W8 m ρ c (Proc.devRef .tc main_arg7) = W7 m ρ c (Proc.devRef .tc main_arg7)).trans
  ((W7_of_ne m ρ c main_arg7 (by decide)).trans
  ((W6_of_ne m ρ c main_arg7 (by decide)).trans
  ((by keep_tac hostOps1 : W5 m ρ c (Proc.devRef .tc main_arg7) = W4 m ρ c (Proc.devRef .tc main_arg7)).trans
  ((W4_of_ne m ρ c main_arg7 (by decide)).trans
  ((by keep_tac hostOps0_2 : W3 m ρ c (Proc.devRef .tc main_arg7) = W2 m ρ c (Proc.devRef .tc main_arg7)).trans
  ((by keep_tac hostOps0_1 : W2 m ρ c (Proc.devRef .tc main_arg7) = W1 m ρ c (Proc.devRef .tc main_arg7)).trans
  ((by keep_tac hostOps0 : W1 m ρ c (Proc.devRef .tc main_arg7) = W0 m ρ c (Proc.devRef .tc main_arg7)).trans rfl)))))))))

theorem A_8 (c : Dev nD) : W10 m ρ c (Proc.devRef .tc main_arg8) = m ((c : Thread nD τ).loc main_arg8) :=
  ((W10_of_ne m ρ c main_arg8 (by decide)).trans
  ((W9_of_ne m ρ c main_arg8 (by decide)).trans
  ((by keep_tac hostOps3 : W8 m ρ c (Proc.devRef .tc main_arg8) = W7 m ρ c (Proc.devRef .tc main_arg8)).trans
  ((W7_of_ne m ρ c main_arg8 (by decide)).trans
  ((W6_of_ne m ρ c main_arg8 (by decide)).trans
  ((by keep_tac hostOps1 : W5 m ρ c (Proc.devRef .tc main_arg8) = W4 m ρ c (Proc.devRef .tc main_arg8)).trans
  ((W4_of_ne m ρ c main_arg8 (by decide)).trans
  ((by keep_tac hostOps0_2 : W3 m ρ c (Proc.devRef .tc main_arg8) = W2 m ρ c (Proc.devRef .tc main_arg8)).trans
  ((by keep_tac hostOps0_1 : W2 m ρ c (Proc.devRef .tc main_arg8) = W1 m ρ c (Proc.devRef .tc main_arg8)).trans
  ((by keep_tac hostOps0 : W1 m ρ c (Proc.devRef .tc main_arg8) = W0 m ρ c (Proc.devRef .tc main_arg8)).trans rfl))))))))))

theorem A_2 (c : Dev nD) : W12 m ρ c (Proc.devRef .tc main_arg2) = m ((c : Thread nD τ).loc main_arg2) :=
  ((W12_of_ne m ρ c main_arg2 (by decide)).trans
  ((by keep_tac hostOps5 : W11 m ρ c (Proc.devRef .tc main_arg2) = W10 m ρ c (Proc.devRef .tc main_arg2)).trans
  ((W10_of_ne m ρ c main_arg2 (by decide)).trans
  ((W9_of_ne m ρ c main_arg2 (by decide)).trans
  ((by keep_tac hostOps3 : W8 m ρ c (Proc.devRef .tc main_arg2) = W7 m ρ c (Proc.devRef .tc main_arg2)).trans
  ((W7_of_ne m ρ c main_arg2 (by decide)).trans
  ((W6_of_ne m ρ c main_arg2 (by decide)).trans
  ((by keep_tac hostOps1 : W5 m ρ c (Proc.devRef .tc main_arg2) = W4 m ρ c (Proc.devRef .tc main_arg2)).trans
  ((W4_of_ne m ρ c main_arg2 (by decide)).trans
  ((by keep_tac hostOps0_2 : W3 m ρ c (Proc.devRef .tc main_arg2) = W2 m ρ c (Proc.devRef .tc main_arg2)).trans
  ((by keep_tac hostOps0_1 : W2 m ρ c (Proc.devRef .tc main_arg2) = W1 m ρ c (Proc.devRef .tc main_arg2)).trans
  ((by keep_tac hostOps0 : W1 m ρ c (Proc.devRef .tc main_arg2) = W0 m ρ c (Proc.devRef .tc main_arg2)).trans rfl))))))))))))

theorem A_10 (c : Dev nD) : W12 m ρ c (Proc.devRef .tc main_arg10) = m ((c : Thread nD τ).loc main_arg10) :=
  ((W12_of_ne m ρ c main_arg10 (by decide)).trans
  ((by keep_tac hostOps5 : W11 m ρ c (Proc.devRef .tc main_arg10) = W10 m ρ c (Proc.devRef .tc main_arg10)).trans
  ((W10_of_ne m ρ c main_arg10 (by decide)).trans
  ((W9_of_ne m ρ c main_arg10 (by decide)).trans
  ((by keep_tac hostOps3 : W8 m ρ c (Proc.devRef .tc main_arg10) = W7 m ρ c (Proc.devRef .tc main_arg10)).trans
  ((W7_of_ne m ρ c main_arg10 (by decide)).trans
  ((W6_of_ne m ρ c main_arg10 (by decide)).trans
  ((by keep_tac hostOps1 : W5 m ρ c (Proc.devRef .tc main_arg10) = W4 m ρ c (Proc.devRef .tc main_arg10)).trans
  ((W4_of_ne m ρ c main_arg10 (by decide)).trans
  ((by keep_tac hostOps0_2 : W3 m ρ c (Proc.devRef .tc main_arg10) = W2 m ρ c (Proc.devRef .tc main_arg10)).trans
  ((by keep_tac hostOps0_1 : W2 m ρ c (Proc.devRef .tc main_arg10) = W1 m ρ c (Proc.devRef .tc main_arg10)).trans
  ((by keep_tac hostOps0 : W1 m ρ c (Proc.devRef .tc main_arg10) = W0 m ρ c (Proc.devRef .tc main_arg10)).trans rfl))))))))))))

theorem A_9 (c : Dev nD) : W13 m ρ c (Proc.devRef .tc main_arg9) = m ((c : Thread nD τ).loc main_arg9) :=
  ((by keep_tac hostOps6 : W13 m ρ c (Proc.devRef .tc main_arg9) = W12 m ρ c (Proc.devRef .tc main_arg9)).trans
  ((W12_of_ne m ρ c main_arg9 (by decide)).trans
  ((by keep_tac hostOps5 : W11 m ρ c (Proc.devRef .tc main_arg9) = W10 m ρ c (Proc.devRef .tc main_arg9)).trans
  ((W10_of_ne m ρ c main_arg9 (by decide)).trans
  ((W9_of_ne m ρ c main_arg9 (by decide)).trans
  ((by keep_tac hostOps3 : W8 m ρ c (Proc.devRef .tc main_arg9) = W7 m ρ c (Proc.devRef .tc main_arg9)).trans
  ((W7_of_ne m ρ c main_arg9 (by decide)).trans
  ((W6_of_ne m ρ c main_arg9 (by decide)).trans
  ((by keep_tac hostOps1 : W5 m ρ c (Proc.devRef .tc main_arg9) = W4 m ρ c (Proc.devRef .tc main_arg9)).trans
  ((W4_of_ne m ρ c main_arg9 (by decide)).trans
  ((by keep_tac hostOps0_2 : W3 m ρ c (Proc.devRef .tc main_arg9) = W2 m ρ c (Proc.devRef .tc main_arg9)).trans
  ((by keep_tac hostOps0_1 : W2 m ρ c (Proc.devRef .tc main_arg9) = W1 m ρ c (Proc.devRef .tc main_arg9)).trans
  ((by keep_tac hostOps0 : W1 m ρ c (Proc.devRef .tc main_arg9) = W0 m ρ c (Proc.devRef .tc main_arg9)).trans rfl)))))))))))))

theorem A_12 (c : Dev nD) : W14 m ρ c (Proc.devRef .tc main_arg12) = m ((c : Thread nD τ).loc main_arg12) :=
  ((W14_of_ne m ρ c main_arg12 (by decide)).trans
  ((by keep_tac hostOps6 : W13 m ρ c (Proc.devRef .tc main_arg12) = W12 m ρ c (Proc.devRef .tc main_arg12)).trans
  ((W12_of_ne m ρ c main_arg12 (by decide)).trans
  ((by keep_tac hostOps5 : W11 m ρ c (Proc.devRef .tc main_arg12) = W10 m ρ c (Proc.devRef .tc main_arg12)).trans
  ((W10_of_ne m ρ c main_arg12 (by decide)).trans
  ((W9_of_ne m ρ c main_arg12 (by decide)).trans
  ((by keep_tac hostOps3 : W8 m ρ c (Proc.devRef .tc main_arg12) = W7 m ρ c (Proc.devRef .tc main_arg12)).trans
  ((W7_of_ne m ρ c main_arg12 (by decide)).trans
  ((W6_of_ne m ρ c main_arg12 (by decide)).trans
  ((by keep_tac hostOps1 : W5 m ρ c (Proc.devRef .tc main_arg12) = W4 m ρ c (Proc.devRef .tc main_arg12)).trans
  ((W4_of_ne m ρ c main_arg12 (by decide)).trans
  ((by keep_tac hostOps0_2 : W3 m ρ c (Proc.devRef .tc main_arg12) = W2 m ρ c (Proc.devRef .tc main_arg12)).trans
  ((by keep_tac hostOps0_1 : W2 m ρ c (Proc.devRef .tc main_arg12) = W1 m ρ c (Proc.devRef .tc main_arg12)).trans
  ((by keep_tac hostOps0 : W1 m ρ c (Proc.devRef .tc main_arg12) = W0 m ρ c (Proc.devRef .tc main_arg12)).trans rfl))))))))))))))

theorem A_11 (c : Dev nD) : W15 m ρ c (Proc.devRef .tc main_arg11) = m ((c : Thread nD τ).loc main_arg11) :=
  ((by keep_tac hostOps7 : W15 m ρ c (Proc.devRef .tc main_arg11) = W14 m ρ c (Proc.devRef .tc main_arg11)).trans
  ((W14_of_ne m ρ c main_arg11 (by decide)).trans
  ((by keep_tac hostOps6 : W13 m ρ c (Proc.devRef .tc main_arg11) = W12 m ρ c (Proc.devRef .tc main_arg11)).trans
  ((W12_of_ne m ρ c main_arg11 (by decide)).trans
  ((by keep_tac hostOps5 : W11 m ρ c (Proc.devRef .tc main_arg11) = W10 m ρ c (Proc.devRef .tc main_arg11)).trans
  ((W10_of_ne m ρ c main_arg11 (by decide)).trans
  ((W9_of_ne m ρ c main_arg11 (by decide)).trans
  ((by keep_tac hostOps3 : W8 m ρ c (Proc.devRef .tc main_arg11) = W7 m ρ c (Proc.devRef .tc main_arg11)).trans
  ((W7_of_ne m ρ c main_arg11 (by decide)).trans
  ((W6_of_ne m ρ c main_arg11 (by decide)).trans
  ((by keep_tac hostOps1 : W5 m ρ c (Proc.devRef .tc main_arg11) = W4 m ρ c (Proc.devRef .tc main_arg11)).trans
  ((W4_of_ne m ρ c main_arg11 (by decide)).trans
  ((by keep_tac hostOps0_2 : W3 m ρ c (Proc.devRef .tc main_arg11) = W2 m ρ c (Proc.devRef .tc main_arg11)).trans
  ((by keep_tac hostOps0_1 : W2 m ρ c (Proc.devRef .tc main_arg11) = W1 m ρ c (Proc.devRef .tc main_arg11)).trans
  ((by keep_tac hostOps0 : W1 m ρ c (Proc.devRef .tc main_arg11) = W0 m ρ c (Proc.devRef .tc main_arg11)).trans rfl)))))))))))))))

theorem A_13 (c : Dev nD) : W16 m ρ c (Proc.devRef .tc main_arg13) = m ((c : Thread nD τ).loc main_arg13) :=
  ((W16_of_ne m ρ c main_arg13 (by decide)).trans
  ((by keep_tac hostOps7 : W15 m ρ c (Proc.devRef .tc main_arg13) = W14 m ρ c (Proc.devRef .tc main_arg13)).trans
  ((W14_of_ne m ρ c main_arg13 (by decide)).trans
  ((by keep_tac hostOps6 : W13 m ρ c (Proc.devRef .tc main_arg13) = W12 m ρ c (Proc.devRef .tc main_arg13)).trans
  ((W12_of_ne m ρ c main_arg13 (by decide)).trans
  ((by keep_tac hostOps5 : W11 m ρ c (Proc.devRef .tc main_arg13) = W10 m ρ c (Proc.devRef .tc main_arg13)).trans
  ((W10_of_ne m ρ c main_arg13 (by decide)).trans
  ((W9_of_ne m ρ c main_arg13 (by decide)).trans
  ((by keep_tac hostOps3 : W8 m ρ c (Proc.devRef .tc main_arg13) = W7 m ρ c (Proc.devRef .tc main_arg13)).trans
  ((W7_of_ne m ρ c main_arg13 (by decide)).trans
  ((W6_of_ne m ρ c main_arg13 (by decide)).trans
  ((by keep_tac hostOps1 : W5 m ρ c (Proc.devRef .tc main_arg13) = W4 m ρ c (Proc.devRef .tc main_arg13)).trans
  ((W4_of_ne m ρ c main_arg13 (by decide)).trans
  ((by keep_tac hostOps0_2 : W3 m ρ c (Proc.devRef .tc main_arg13) = W2 m ρ c (Proc.devRef .tc main_arg13)).trans
  ((by keep_tac hostOps0_1 : W2 m ρ c (Proc.devRef .tc main_arg13) = W1 m ρ c (Proc.devRef .tc main_arg13)).trans
  ((by keep_tac hostOps0 : W1 m ρ c (Proc.devRef .tc main_arg13) = W0 m ρ c (Proc.devRef .tc main_arg13)).trans rfl))))))))))))))))

theorem A_14 (c : Dev nD) : W16 m ρ c (Proc.devRef .tc main_arg14) = m ((c : Thread nD τ).loc main_arg14) :=
  ((W16_of_ne m ρ c main_arg14 (by decide)).trans
  ((by keep_tac hostOps7 : W15 m ρ c (Proc.devRef .tc main_arg14) = W14 m ρ c (Proc.devRef .tc main_arg14)).trans
  ((W14_of_ne m ρ c main_arg14 (by decide)).trans
  ((by keep_tac hostOps6 : W13 m ρ c (Proc.devRef .tc main_arg14) = W12 m ρ c (Proc.devRef .tc main_arg14)).trans
  ((W12_of_ne m ρ c main_arg14 (by decide)).trans
  ((by keep_tac hostOps5 : W11 m ρ c (Proc.devRef .tc main_arg14) = W10 m ρ c (Proc.devRef .tc main_arg14)).trans
  ((W10_of_ne m ρ c main_arg14 (by decide)).trans
  ((W9_of_ne m ρ c main_arg14 (by decide)).trans
  ((by keep_tac hostOps3 : W8 m ρ c (Proc.devRef .tc main_arg14) = W7 m ρ c (Proc.devRef .tc main_arg14)).trans
  ((W7_of_ne m ρ c main_arg14 (by decide)).trans
  ((W6_of_ne m ρ c main_arg14 (by decide)).trans
  ((by keep_tac hostOps1 : W5 m ρ c (Proc.devRef .tc main_arg14) = W4 m ρ c (Proc.devRef .tc main_arg14)).trans
  ((W4_of_ne m ρ c main_arg14 (by decide)).trans
  ((by keep_tac hostOps0_2 : W3 m ρ c (Proc.devRef .tc main_arg14) = W2 m ρ c (Proc.devRef .tc main_arg14)).trans
  ((by keep_tac hostOps0_1 : W2 m ρ c (Proc.devRef .tc main_arg14) = W1 m ρ c (Proc.devRef .tc main_arg14)).trans
  ((by keep_tac hostOps0 : W1 m ρ c (Proc.devRef .tc main_arg14) = W0 m ρ c (Proc.devRef .tc main_arg14)).trans rfl))))))))))))))))

/-! ## The edge lists and the edge coefficients at the three stretches that read them -/

theorem E_3_4 (c : Dev nD) : W4 m ρ c (Proc.devRef .tc main_v3) = Cert.ReferenceIdeal.ReadP.val_main_v3 (F := Ideal) (m ((c : Thread nD τ).loc main_arg1)) :=
  ((W4_of_ne m ρ c main_v3 (by decide)).trans (Cert.KernelIdeal.KStageA.k3 m ρ c))

theorem E_3_7 (c : Dev nD) : W7 m ρ c (Proc.devRef .tc main_v3) = Cert.ReferenceIdeal.ReadP.val_main_v3 (F := Ideal) (m ((c : Thread nD τ).loc main_arg1)) :=
  ((W7_of_ne m ρ c main_v3 (by decide)).trans
  ((W6_of_ne m ρ c main_v3 (by decide)).trans
  ((by keep_tac hostOps1 : W5 m ρ c (Proc.devRef .tc main_v3) = W4 m ρ c (Proc.devRef .tc main_v3)).trans
  ((W4_of_ne m ρ c main_v3 (by decide)).trans (Cert.KernelIdeal.KStageA.k3 m ρ c)))))

theorem E_3_10 (c : Dev nD) : W10 m ρ c (Proc.devRef .tc main_v3) = Cert.ReferenceIdeal.ReadP.val_main_v3 (F := Ideal) (m ((c : Thread nD τ).loc main_arg1)) :=
  ((W10_of_ne m ρ c main_v3 (by decide)).trans
  ((W9_of_ne m ρ c main_v3 (by decide)).trans
  ((by keep_tac hostOps3 : W8 m ρ c (Proc.devRef .tc main_v3) = W7 m ρ c (Proc.devRef .tc main_v3)).trans
  ((W7_of_ne m ρ c main_v3 (by decide)).trans
  ((W6_of_ne m ρ c main_v3 (by decide)).trans
  ((by keep_tac hostOps1 : W5 m ρ c (Proc.devRef .tc main_v3) = W4 m ρ c (Proc.devRef .tc main_v3)).trans
  ((W4_of_ne m ρ c main_v3 (by decide)).trans (Cert.KernelIdeal.KStageA.k3 m ρ c))))))))

theorem E_6_4 (c : Dev nD) : W4 m ρ c (Proc.devRef .tc main_v6) = Cert.ReferenceIdeal.ReadP.val_main_v6 (F := Ideal) (m ((c : Thread nD τ).loc main_arg1)) :=
  ((W4_of_ne m ρ c main_v6 (by decide)).trans (Cert.KernelIdeal.KStageA.k6 m ρ c))

theorem E_6_7 (c : Dev nD) : W7 m ρ c (Proc.devRef .tc main_v6) = Cert.ReferenceIdeal.ReadP.val_main_v6 (F := Ideal) (m ((c : Thread nD τ).loc main_arg1)) :=
  ((W7_of_ne m ρ c main_v6 (by decide)).trans
  ((W6_of_ne m ρ c main_v6 (by decide)).trans
  ((by keep_tac hostOps1 : W5 m ρ c (Proc.devRef .tc main_v6) = W4 m ρ c (Proc.devRef .tc main_v6)).trans
  ((W4_of_ne m ρ c main_v6 (by decide)).trans (Cert.KernelIdeal.KStageA.k6 m ρ c)))))

theorem E_6_10 (c : Dev nD) : W10 m ρ c (Proc.devRef .tc main_v6) = Cert.ReferenceIdeal.ReadP.val_main_v6 (F := Ideal) (m ((c : Thread nD τ).loc main_arg1)) :=
  ((W10_of_ne m ρ c main_v6 (by decide)).trans
  ((W9_of_ne m ρ c main_v6 (by decide)).trans
  ((by keep_tac hostOps3 : W8 m ρ c (Proc.devRef .tc main_v6) = W7 m ρ c (Proc.devRef .tc main_v6)).trans
  ((W7_of_ne m ρ c main_v6 (by decide)).trans
  ((W6_of_ne m ρ c main_v6 (by decide)).trans
  ((by keep_tac hostOps1 : W5 m ρ c (Proc.devRef .tc main_v6) = W4 m ρ c (Proc.devRef .tc main_v6)).trans
  ((W4_of_ne m ρ c main_v6 (by decide)).trans (Cert.KernelIdeal.KStageA.k6 m ρ c))))))))

theorem E_31_4 (c : Dev nD) : W4 m ρ c (Proc.devRef .tc main_v31) = Cert.ReferenceIdeal.ReadP.val_main_v31 (F := Ideal) (m ((c : Thread nD τ).loc main_arg1)) :=
  ((W4_of_ne m ρ c main_v31 (by decide)).trans (Cert.KernelIdeal.KStageA.k31 m ρ c))

theorem E_31_7 (c : Dev nD) : W7 m ρ c (Proc.devRef .tc main_v31) = Cert.ReferenceIdeal.ReadP.val_main_v31 (F := Ideal) (m ((c : Thread nD τ).loc main_arg1)) :=
  ((W7_of_ne m ρ c main_v31 (by decide)).trans
  ((W6_of_ne m ρ c main_v31 (by decide)).trans
  ((by keep_tac hostOps1 : W5 m ρ c (Proc.devRef .tc main_v31) = W4 m ρ c (Proc.devRef .tc main_v31)).trans
  ((W4_of_ne m ρ c main_v31 (by decide)).trans (Cert.KernelIdeal.KStageA.k31 m ρ c)))))

theorem E_31_10 (c : Dev nD) : W10 m ρ c (Proc.devRef .tc main_v31) = Cert.ReferenceIdeal.ReadP.val_main_v31 (F := Ideal) (m ((c : Thread nD τ).loc main_arg1)) :=
  ((W10_of_ne m ρ c main_v31 (by decide)).trans
  ((W9_of_ne m ρ c main_v31 (by decide)).trans
  ((by keep_tac hostOps3 : W8 m ρ c (Proc.devRef .tc main_v31) = W7 m ρ c (Proc.devRef .tc main_v31)).trans
  ((W7_of_ne m ρ c main_v31 (by decide)).trans
  ((W6_of_ne m ρ c main_v31 (by decide)).trans
  ((by keep_tac hostOps1 : W5 m ρ c (Proc.devRef .tc main_v31) = W4 m ρ c (Proc.devRef .tc main_v31)).trans
  ((W4_of_ne m ρ c main_v31 (by decide)).trans (Cert.KernelIdeal.KStageA.k31 m ρ c))))))))

end Cert.KernelIdeal.KKeep

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Reg0.lean ====
/-
  Region 0 of the idealized kernel: the feature transform `x · W` of a [50000, 37] array by a [37, 64] matrix,
  ten blocks of 5000 rows.

  Each grid point loads its 5000 rows of `x` and the whole of `W`, rounds both to bf16 (the identity on the extended
  reals) and multiplies them into a zero accumulator.  Block `t` of the output is rows `5000 t … 5000 t + 4999`, the
  ten blocks tile the array, and a row of the product depends only on the same row of `x`: after the region the
  output holds, at `(r, j)`, the sum over `q < 37` of `x (r, q) · W (q, j)` of the arrays the region found.
-/
import proofs.«168961_j42296837931533_1_alg».proof.Proof.Gen.KernelIdeal.Frame
import proofs.«168961_j42296837931533_1_alg».proof.Proof.LibPlainDot
import proofs.«168961_j42296837931533_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: the matrix product, entry by entry. -/
def G (x : S50000x37.Idx → Elt Ideal .f32) (w : S37x64.Idx → Elt Ideal .f32) : S50000x64.Idx → Elt Ideal .f32 :=
  Cert.Spec.dense x w

theorem hz : (![0, 0] : Fin 2 → Nat) = fun _ => 0 := funext fun a => by fin_cases a <;> rfl

/-- The body's stored value at `(p, j)` of the block: row `p` of the loaded rows against column `j` of the matrix. -/
theorem pay_ix (x0 : Vec Ideal S5000x37 .f32) (x1 : Vec Ideal S37x64 .f32) (p : Fin 5000) (j : Fin 64) :
    k0_pay1 (F := Ideal) x0 x1 (ix2 p j) = ∑ q : Fin 37, x0 (ix2 p q) * x1 (ix2 q j) := by
  unfold k0_pay1
  exact Cert.PlainDot.matmul_zero_ix2 dot_S5000x37_S37x64_S5000x64_1_0_0_1_n_n rfl none _ _ p j

theorem pay_apply (x0 : Vec Ideal S5000x37 .f32) (x1 : Vec Ideal S37x64 .f32) (j : S5000x64.Idx) :
    k0_pay1 (F := Ideal) x0 x1 j
      = ∑ q : Fin 37, x0 (ix2 (⟨(j 0).val, idx2_lt0 j⟩ : Fin 5000) q) * x1 (ix2 q (⟨(j 1).val, idx2_lt1 j⟩ : Fin 64)) := by
  obtain ⟨p, j', rfl⟩ : ∃ (p : Fin 5000) (j' : Fin 64), j = ix2 p j' := ⟨j 0, j 1, eq_ix2 j⟩
  exact pay_ix x0 x1 p j'

/-- The printed index maps over the grid: the rows' block moves with the output's, the matrix's stays, the output's
    block index on the row axis is the point and on the column axis zero. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block step over arbitrary arrays: the product of the two blocks at a block index is `G` of the arrays at that
    index of the array. -/
theorem blk_eq (X : S50000x37.Idx → Elt Ideal .f32) (Wv : S37x64.Idx → Elt Ideal .f32) (t : Fin cfg0.N) (j : S5000x64.Idx) :
    (∑ q : Fin 37, X (((cfg0.win 0).blk t).view.emb (ix2 (⟨(j 0).val, idx2_lt0 j⟩ : Fin 5000) q))
        * Wv (((cfg0.win 1).blk t).view.emb (ix2 q (⟨(j 1).val, idx2_lt1 j⟩ : Fin 64))))
      = G X Wv (((cfg0.win 2).blk t).view.emb j) := by
  obtain ⟨e0, e1, e2, e3, e4, e5⟩ := idx_facts t
  show _ = ∑ q : Fin 37, X (ix2 (⟨((((cfg0.win 2).blk t).view.emb j) 0).val, idx2_lt0 _⟩ : Fin 50000) q)
        * Wv (ix2 q (⟨((((cfg0.win 2).blk t).view.emb j) 1).val, idx2_lt1 _⟩ : Fin 64))
  refine Finset.sum_congr rfl fun q _ => ?_
  have h0 : ((cfg0.win 0).blk t).view.emb (ix2 (⟨(j 0).val, idx2_lt0 j⟩ : Fin 5000) q)
      = ix2 (⟨((((cfg0.win 2).blk t).view.emb j) 0).val, idx2_lt0 _⟩ : Fin 50000) q := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 37 + 1 * q.val = q.val; omega
  have h1 : ((cfg0.win 1).blk t).view.emb (ix2 q (⟨(j 1).val, idx2_lt1 j⟩ : Fin 64))
      = ix2 q (⟨((((cfg0.win 2).blk t).view.emb j) 1).val, idx2_lt1 _⟩ : Fin 64) := by
    funext a; apply Fin.ext
    match a with
    | ⟨0, _⟩ => show win0_1.index t (0 : Fin 2) * 37 + 1 * q.val = q.val; omega
    | ⟨1, _⟩ => show win0_1.index t (1 : Fin 2) * 64 + 1 * (j 1).val = win0_2.index t (1 : Fin 2) * 64 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg0.N) :
    (dat0 (F := Ideal) V c).flushed 2 t = ((cfg0.win 2).blk t).view.read (Elt Ideal) (G (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x37) hz, View.ld_unit_zero (S := S37x64) hz]
  funext j
  refine (pay_apply _ _ j).trans ?_
  exact blk_eq (V c main_arg0) (V c main_arg3) t j

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every index of the array lies in the block of the point numbered by its row divided by 5000. -/
theorem cover (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  refine ⟨⟨(i 0).val / 5000, by show (i 0).val / 5000 < 10; omega⟩, flush0_2 _, ?_⟩
  rw [mem_blk]
  obtain ⟨e0, e1, e2, e3, e4, e5⟩ := idx_facts ⟨(i 0).val / 5000, by show (i 0).val / 5000 < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- The output array after the region: `G` of the two arrays the region found. -/
theorem val (c : Dev nD) : (dat0 (F := Ideal) V c).arrAt 2 cfg0.N = G (V c main_arg0) (V c main_arg3) :=
  (dat0 (F := Ideal) V c).arrAt_eq_of_cover 2 (G (V c main_arg0) (V c main_arg3)) (fun t _ => flushed_eq V c t) cover

end Cert.KernelIdeal.Reg0

end
-- ==== Proof.Reg1.lean ====
/-
  Region 1 of the idealized kernel: bias and rectifier on a [50000, 64] array, ten blocks of 5000 rows.

  Each grid point loads its 5000 rows of the input and the one bias row, adds the row to every row of the block and
  takes the maximum with zero.  Block `t` of the output is rows `5000 t … 5000 t + 4999`, and the ten blocks tile the
  array, so after the region the output array holds, at `(r, j)`, `max (x (r, j) + b (0, j)) 0` of the arrays the
  region found.
-/
import proofs.«168961_j42296837931533_1_alg».proof.Proof.Gen.KernelIdeal.Frame
import proofs.«168961_j42296837931533_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: row `b (0, ·)` added to every row of `a`, then the
    maximum with zero. -/
def G (a : S50000x64.Idx → Elt Ideal .f32) (b : S1x64.Idx → Elt Ideal .f32) : S50000x64.Idx → Elt Ideal .f32 :=
  Cert.Spec.biasRelu a (fun j => b (ix2 (0 : Fin 1) j))

theorem hz : (![0, 0] : Fin 2 → Nat) = fun _ => 0 := funext fun a => by fin_cases a <;> rfl

/-- The body's stored value at `(p, q)` of the block: the loaded block at `(p, q)` plus the bias row at `q`, against zero. -/
theorem pay_ix (x1 : Vec Ideal S1x64 .f32) (x0 : Vec Ideal S5000x64 .f32) (p : Fin 5000) (q : Fin 64) :
    k1_pay1 (F := Ideal) x1 x0 (ix2 p q) = max (x0 (ix2 p q) + x1 (ix2 (0 : Fin 1) q)) (Ideal.ofBits .f32 0x00000000#32) := by
  unfold k1_pay1
  rw [maximumf_apply, addf_apply, shapeCast_self, shapeCast_self, shapeCast_self]
  rw [broadcastTo_1b_ab_apply]
  rfl

theorem pay_apply (x1 : Vec Ideal S1x64 .f32) (x0 : Vec Ideal S5000x64 .f32) (j : S5000x64.Idx) :
    k1_pay1 (F := Ideal) x1 x0 j = max (x0 j + x1 (ix2 (0 : Fin 1) (⟨(j 1).val, idx2_lt1 j⟩ : Fin 64))) (Ideal.ofBits .f32 0x00000000#32) := by
  obtain ⟨p, q, rfl⟩ : ∃ (p : Fin 5000) (q : Fin 64), j = ix2 p q := ⟨j 0, j 1, eq_ix2 j⟩
  exact pay_ix x1 x0 p q

/-- The printed index maps over the grid: the input's block moves with the output's, the bias row's stays, the
    output's block index on the row axis is the point and on the column axis zero. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block step over arbitrary arrays: the bias-and-rectifier of the two blocks at a block index is `G` of the
    arrays at that index of the array. -/
theorem blk_eq (X : S50000x64.Idx → Elt Ideal .f32) (Bv : S1x64.Idx → Elt Ideal .f32) (t : Fin cfg1.N) (j : S5000x64.Idx) :
    max (X (((cfg1.win 0).blk t).view.emb j)
        + Bv (((cfg1.win 1).blk t).view.emb (ix2 (0 : Fin 1) (⟨(j 1).val, idx2_lt1 j⟩ : Fin 64)))) (Ideal.ofBits .f32 0x00000000#32)
      = G X Bv (((cfg1.win 2).blk t).view.emb j) := by
  obtain ⟨e0, e1, e2, e3, e4, e5⟩ := idx_facts t
  show _ = max (X (((cfg1.win 2).blk t).view.emb j)
        + Bv (ix2 (0 : Fin 1) (⟨((((cfg1.win 2).blk t).view.emb j) 1).val, idx2_lt1 _⟩ : Fin 64))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, idx2_lt1 j⟩ : Fin 64))
      = ix2 (0 : Fin 1) (⟨((((cfg1.win 2).blk t).view.emb j) 1).val, idx2_lt1 _⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg1.N) :
    (dat1 (F := Ideal) V c).flushed 2 t = ((cfg1.win 2).blk t).view.read (Elt Ideal) (G (V c main_v45) (V c main_v46)) := by
  show (cfg1.win 2).cut (grid1.coords t) ((dat1 (F := Ideal) V c).after 2 t) = _
  rw [after1_2]
  unfold out1_2
  rw [View.canon_unit_zero hz]
  simp only [View.ld_unit_zero (S := S5000x64) hz, View.ld_unit_zero (S := S1x64) hz]
  funext j
  refine (pay_apply _ _ j).trans ?_
  exact blk_eq (V c main_v45) (V c main_v46) t j

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every index of the array lies in the block of the point numbered by its row divided by 5000. -/
theorem cover (i : S50000x64.Idx) :
    ∃ t : Fin cfg1.N, (cfg1.win 2).flush t = true ∧ i ∈ ((cfg1.win 2).blk t).view.set := by
  have hi0 : (i 0).val < 50000 := idx2_lt0 i
  have hi1 : (i 1).val < 64 := idx2_lt1 i
  refine ⟨⟨(i 0).val / 5000, by show (i 0).val / 5000 < 10; omega⟩, flush1_2 _, ?_⟩
  rw [mem_blk]
  obtain ⟨e0, e1, e2, e3, e4, e5⟩ := idx_facts ⟨(i 0).val / 5000, by show (i 0).val / 5000 < 10; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-- The output array after the region: `G` of the two arrays the region found. -/
theorem val (c : Dev nD) : (dat1 (F := Ideal) V c).arrAt 2 cfg1.N = G (V c main_v45) (V c main_v46) :=
  (dat1 (F := Ideal) V c).arrAt_eq_of_cover 2 (G (V c main_v45) (V c main_v46)) (fun t _ => flushed_eq V c t) cover

end Cert.KernelIdeal.Reg1

end
-- ==== Proof.Reg2.lean ====
/-
  Region 2 of the idealized kernel: the feature transform `x · W` of a [50000, 64] array by a [64, 128] matrix,
  ten blocks of 5000 rows.

  Each grid point loads its 5000 rows of `x` and the whole of `W`, rounds both to bf16 (the identity on the extended
  reals) and multiplies them into a zero accumulator.  Block `t` of the output is rows `5000 t … 5000 t + 4999`, the
  ten blocks tile the array, and a row of the product depends only on the same row of `x`: after the region the
  output holds, at `(r, j)`, the sum over `q < 64` of `x (r, q) · W (q, j)` of the arrays the region found.
-/
import proofs.«168961_j42296837931533_1_alg».proof.Proof.Gen.KernelIdeal.Frame
import proofs.«168961_j42296837931533_1_alg».proof.Proof.LibPlainDot
import proofs.«168961_j42296837931533_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: the matrix product, entry by entry. -/
def G (x : S50000x64.Idx → Elt Ideal .f32) (w : S64x128.Idx → Elt Ideal .f32) : S50000x128.Idx → Elt Ideal .f32 :=
  Cert.Spec.dense x w

theorem hz : (![0, 0] : Fin 2 → Nat) = fun _ => 0 := funext fun a => by fin_cases a <;> rfl

/-- The body's stored value at `(p, j)` of the block: row `p` of the loaded rows against column `j` of the matrix. -/
theorem pay_ix (x0 : Vec Ideal S5000x64 .f32) (x1 : Vec Ideal S64x128 .f32) (p : Fin 5000) (j : Fin 128) :
    k2_pay1 (F := Ideal) x0 x1 (ix2 p j) = ∑ q : Fin 64, x0 (ix2 p q) * x1 (ix2 q j) := by
  unfold k2_pay1
  refine (Cert.PlainDot.matmul_zero_ix2 dot_S5000x64_S64x128_S5000x128_1_0_0_1_n_n rfl none _ _ p j).trans ?_
  try rw [shapeCast_self]
  rfl

theorem pay_apply (x0 : Vec Ideal S5000x64 .f32) (x1 : Vec Ideal S64x128 .f32) (j : S5000x128.Idx) :
    k2_pay1 (F := Ideal) x0 x1 j
      = ∑ q : Fin 64, x0 (ix2 (⟨(j 0).val, idx2_lt0 j⟩ : Fin 5000) q) * x1 (ix2 q (⟨(j 1).val, idx2_lt1 j⟩ : Fin 128)) := by
  obtain ⟨p, j', rfl⟩ : ∃ (p : Fin 5000) (j' : Fin 128), j = ix2 p j' := ⟨j 0, j 1, eq_ix2 j⟩
  exact pay_ix x0 x1 p j'

/-- The printed index maps over the grid: the rows' block moves with the output's, the matrix's stays, the output's
    block index on the row axis is the point and on the column axis zero. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block step over arbitrary arrays: the product of the two blocks at a block index is `G` of the arrays at that
    index of the array. -/
theorem blk_eq (X : S50000x64.Idx → Elt Ideal .f32) (Wv : S64x128.Idx → Elt Ideal .f32) (t : Fin cfg2.N) (j : S5000x128.Idx) :
    (∑ q : Fin 64, X (((cfg2.win 0).blk t).view.emb (ix2 (⟨(j 0).val, idx2_lt0 j⟩ : Fin 5000) q))
        * Wv (((cfg2.win 1).blk t).view.emb (ix2 q (⟨(j 1).val, idx2_lt1 j⟩ : Fin 128))))
      = G X Wv (((cfg2.win 2).blk t).view.emb j) := by
  obtain ⟨e0, e1, e2, e3, e4, e5⟩ := idx_facts t
  show _ = ∑ q : Fin 64, X (ix2 (⟨((((cfg2.win 2).blk t).view.emb j) 0).val, idx2_lt0 _⟩ : Fin 50000) q)
        * Wv (ix2 q (⟨((((cfg2.win 2).blk t).view.emb j) 1).val, idx2_lt1 _⟩ : Fin 128))
  refine Finset.sum_congr rfl fun q _ => ?_
  have h0 : ((cfg2.win 0).blk t).view.emb (ix2 (⟨(j 0).val, idx2_lt0 j⟩ : Fin 5000) q)
      = ix2 (⟨((((cfg2.win 2).blk t).view.emb j) 0).val, idx2_lt0 _⟩ : Fin 50000) q := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * q.val = q.val; omega
  have h1 : ((cfg2.win 1).blk t).view.emb (ix2 q (⟨(j 1).val, idx2_lt1 j⟩ : Fin 128))
      = ix2 q (⟨((((cfg2.win 2).blk t).view.emb j) 1).val, idx2_lt1 _⟩ : Fin 128) := by
    funext a; apply Fin.ext
    match a with
    | ⟨0, _⟩ => show win2_1.index t (0 : Fin 2) * 64 + 1 * q.val = q.val; omega
    | ⟨1, _⟩ => show win2_1.index t (1 : Fin 2) * 128 + 1 * (j 1).val = win2_2.index t (1 : Fin 2) * 128 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg2.N) :
    (dat2 (F := Ideal) V c).flushed 2 t = ((cfg2.win 2).blk t).view.read (Elt Ideal) (G (V c main_v47) (V c main_arg5)) := by
  show (cfg2.win 2).cut (grid2.coords t) ((dat2 (F := Ideal) V c).after 2 t) = _
  rw [after2_2]
  unfold out2_2
  rw [View.canon_unit_zero hz]
  simp only [View.ld_unit_zero (S := S5000x64) hz, View.ld_unit_zero (S := S64x128) hz]
  funext j
  refine (pay_apply _ _ j).trans ?_
  exact blk_eq (V c main_v47) (V c main_arg5) t j

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the array lies in the block of the point numbered by its row divided by 5000. -/
theorem cover (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  refine ⟨⟨(i 0).val / 5000, by show (i 0).val / 5000 < 10; omega⟩, flush2_2 _, ?_⟩
  rw [mem_blk]
  obtain ⟨e0, e1, e2, e3, e4, e5⟩ := idx_facts ⟨(i 0).val / 5000, by show (i 0).val / 5000 < 10; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The output array after the region: `G` of the two arrays the region found. -/
theorem val (c : Dev nD) : (dat2 (F := Ideal) V c).arrAt 2 cfg2.N = G (V c main_v47) (V c main_arg5) :=
  (dat2 (F := Ideal) V c).arrAt_eq_of_cover 2 (G (V c main_v47) (V c main_arg5)) (fun t _ => flushed_eq V c t) cover

end Cert.KernelIdeal.Reg2

end
-- ==== Proof.Reg3.lean ====
/-
  Region 3 of the idealized kernel: bias and rectifier on a [50000, 128] array, ten blocks of 5000 rows.

  Each grid point loads its 5000 rows of the input and the one bias row, adds the row to every row of the block and
  takes the maximum with zero.  Block `t` of the output is rows `5000 t … 5000 t + 4999`, and the ten blocks tile the
  array, so after the region the output array holds, at `(r, j)`, `max (x (r, j) + b (0, j)) 0` of the arrays the
  region found.
-/
import proofs.«168961_j42296837931533_1_alg».proof.Proof.Gen.KernelIdeal.Frame
import proofs.«168961_j42296837931533_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: row `b (0, ·)` added to every row of `a`, then the
    maximum with zero. -/
def G (a : S50000x128.Idx → Elt Ideal .f32) (b : S1x128.Idx → Elt Ideal .f32) : S50000x128.Idx → Elt Ideal .f32 :=
  Cert.Spec.biasRelu a (fun j => b (ix2 (0 : Fin 1) j))

theorem hz : (![0, 0] : Fin 2 → Nat) = fun _ => 0 := funext fun a => by fin_cases a <;> rfl

/-- The body's stored value at `(p, q)` of the block: the loaded block at `(p, q)` plus the bias row at `q`, against zero. -/
theorem pay_ix (x1 : Vec Ideal S1x128 .f32) (x0 : Vec Ideal S5000x128 .f32) (p : Fin 5000) (q : Fin 128) :
    k3_pay1 (F := Ideal) x1 x0 (ix2 p q) = max (x0 (ix2 p q) + x1 (ix2 (0 : Fin 1) q)) (Ideal.ofBits .f32 0x00000000#32) := by
  unfold k3_pay1
  rw [maximumf_apply, addf_apply, shapeCast_self, shapeCast_self, shapeCast_self]
  rw [broadcastTo_1b_ab_apply]
  rfl

theorem pay_apply (x1 : Vec Ideal S1x128 .f32) (x0 : Vec Ideal S5000x128 .f32) (j : S5000x128.Idx) :
    k3_pay1 (F := Ideal) x1 x0 j = max (x0 j + x1 (ix2 (0 : Fin 1) (⟨(j 1).val, idx2_lt1 j⟩ : Fin 128))) (Ideal.ofBits .f32 0x00000000#32) := by
  obtain ⟨p, q, rfl⟩ : ∃ (p : Fin 5000) (q : Fin 128), j = ix2 p q := ⟨j 0, j 1, eq_ix2 j⟩
  exact pay_ix x1 x0 p q

/-- The printed index maps over the grid: the input's block moves with the output's, the bias row's stays, the
    output's block index on the row axis is the point and on the column axis zero. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block step over arbitrary arrays: the bias-and-rectifier of the two blocks at a block index is `G` of the
    arrays at that index of the array. -/
theorem blk_eq (X : S50000x128.Idx → Elt Ideal .f32) (Bv : S1x128.Idx → Elt Ideal .f32) (t : Fin cfg3.N) (j : S5000x128.Idx) :
    max (X (((cfg3.win 0).blk t).view.emb j)
        + Bv (((cfg3.win 1).blk t).view.emb (ix2 (0 : Fin 1) (⟨(j 1).val, idx2_lt1 j⟩ : Fin 128)))) (Ideal.ofBits .f32 0x00000000#32)
      = G X Bv (((cfg3.win 2).blk t).view.emb j) := by
  obtain ⟨e0, e1, e2, e3, e4, e5⟩ := idx_facts t
  show _ = max (X (((cfg3.win 2).blk t).view.emb j)
        + Bv (ix2 (0 : Fin 1) (⟨((((cfg3.win 2).blk t).view.emb j) 1).val, idx2_lt1 _⟩ : Fin 128))) (Ideal.ofBits .f32 0x00000000#32)
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (⟨(j 1).val, idx2_lt1 j⟩ : Fin 128))
      = ix2 (0 : Fin 1) (⟨((((cfg3.win 2).blk t).view.emb j) 1).val, idx2_lt1 _⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg3.N) :
    (dat3 (F := Ideal) V c).flushed 2 t = ((cfg3.win 2).blk t).view.read (Elt Ideal) (G (V c main_v61) (V c main_v62)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  funext j
  refine (pay_apply _ _ j).trans ?_
  exact blk_eq (V c main_v61) (V c main_v62) t j

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every index of the array lies in the block of the point numbered by its row divided by 5000. -/
theorem cover (i : S50000x128.Idx) :
    ∃ t : Fin cfg3.N, (cfg3.win 2).flush t = true ∧ i ∈ ((cfg3.win 2).blk t).view.set := by
  have hi0 : (i 0).val < 50000 := idx2_lt0 i
  have hi1 : (i 1).val < 128 := idx2_lt1 i
  refine ⟨⟨(i 0).val / 5000, by show (i 0).val / 5000 < 10; omega⟩, flush3_2 _, ?_⟩
  rw [mem_blk]
  obtain ⟨e0, e1, e2, e3, e4, e5⟩ := idx_facts ⟨(i 0).val / 5000, by show (i 0).val / 5000 < 10; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The output array after the region: `G` of the two arrays the region found. -/
theorem val (c : Dev nD) : (dat3 (F := Ideal) V c).arrAt 2 cfg3.N = G (V c main_v61) (V c main_v62) :=
  (dat3 (F := Ideal) V c).arrAt_eq_of_cover 2 (G (V c main_v61) (V c main_v62)) (fun t _ => flushed_eq V c t) cover

end Cert.KernelIdeal.Reg3

end
-- ==== Proof.Reg4.lean ====
/-
  Region 4 of the idealized kernel: the feature transform `x · W` of a [50000, 128] array by a [128, 64] matrix,
  ten blocks of 5000 rows.

  Each grid point loads its 5000 rows of `x` and the whole of `W`, rounds both to bf16 (the identity on the extended
  reals) and multiplies them into a zero accumulator.  Block `t` of the output is rows `5000 t … 5000 t + 4999`, the
  ten blocks tile the array, and a row of the product depends only on the same row of `x`: after the region the
  output holds, at `(r, j)`, the sum over `q < 128` of `x (r, q) · W (q, j)` of the arrays the region found.
-/
import proofs.«168961_j42296837931533_1_alg».proof.Proof.Gen.KernelIdeal.Frame
import proofs.«168961_j42296837931533_1_alg».proof.Proof.LibPlainDot
import proofs.«168961_j42296837931533_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: the matrix product, entry by entry. -/
def G (x : S50000x128.Idx → Elt Ideal .f32) (w : S128x64.Idx → Elt Ideal .f32) : S50000x64.Idx → Elt Ideal .f32 :=
  Cert.Spec.dense x w

theorem hz : (![0, 0] : Fin 2 → Nat) = fun _ => 0 := funext fun a => by fin_cases a <;> rfl

/-- The body's stored value at `(p, j)` of the block: row `p` of the loaded rows against column `j` of the matrix. -/
theorem pay_ix (x0 : Vec Ideal S5000x128 .f32) (x1 : Vec Ideal S128x64 .f32) (p : Fin 5000) (j : Fin 64) :
    k4_pay1 (F := Ideal) x0 x1 (ix2 p j) = ∑ q : Fin 128, x0 (ix2 p q) * x1 (ix2 q j) := by
  unfold k4_pay1
  refine (Cert.PlainDot.matmul_zero_ix2 dot_S5000x128_S128x64_S5000x64_1_0_0_1_n_n rfl none _ _ p j).trans ?_
  try rw [shapeCast_self]
  rfl

theorem pay_apply (x0 : Vec Ideal S5000x128 .f32) (x1 : Vec Ideal S128x64 .f32) (j : S5000x64.Idx) :
    k4_pay1 (F := Ideal) x0 x1 j
      = ∑ q : Fin 128, x0 (ix2 (⟨(j 0).val, idx2_lt0 j⟩ : Fin 5000) q) * x1 (ix2 q (⟨(j 1).val, idx2_lt1 j⟩ : Fin 64)) := by
  obtain ⟨p, j', rfl⟩ : ∃ (p : Fin 5000) (j' : Fin 64), j = ix2 p j' := ⟨j 0, j 1, eq_ix2 j⟩
  exact pay_ix x0 x1 p j'

/-- The printed index maps over the grid: the rows' block moves with the output's, the matrix's stays, the output's
    block index on the row axis is the point and on the column axis zero. -/
theorem idx_facts : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block step over arbitrary arrays: the product of the two blocks at a block index is `G` of the arrays at that
    index of the array. -/
theorem blk_eq (X : S50000x128.Idx → Elt Ideal .f32) (Wv : S128x64.Idx → Elt Ideal .f32) (t : Fin cfg4.N) (j : S5000x64.Idx) :
    (∑ q : Fin 128, X (((cfg4.win 0).blk t).view.emb (ix2 (⟨(j 0).val, idx2_lt0 j⟩ : Fin 5000) q))
        * Wv (((cfg4.win 1).blk t).view.emb (ix2 q (⟨(j 1).val, idx2_lt1 j⟩ : Fin 64))))
      = G X Wv (((cfg4.win 2).blk t).view.emb j) := by
  obtain ⟨e0, e1, e2, e3, e4, e5⟩ := idx_facts t
  show _ = ∑ q : Fin 128, X (ix2 (⟨((((cfg4.win 2).blk t).view.emb j) 0).val, idx2_lt0 _⟩ : Fin 50000) q)
        * Wv (ix2 q (⟨((((cfg4.win 2).blk t).view.emb j) 1).val, idx2_lt1 _⟩ : Fin 64))
  refine Finset.sum_congr rfl fun q _ => ?_
  have h0 : ((cfg4.win 0).blk t).view.emb (ix2 (⟨(j 0).val, idx2_lt0 j⟩ : Fin 5000) q)
      = ix2 (⟨((((cfg4.win 2).blk t).view.emb j) 0).val, idx2_lt0 _⟩ : Fin 50000) q := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * q.val = q.val; omega
  have h1 : ((cfg4.win 1).blk t).view.emb (ix2 q (⟨(j 1).val, idx2_lt1 j⟩ : Fin 64))
      = ix2 q (⟨((((cfg4.win 2).blk t).view.emb j) 1).val, idx2_lt1 _⟩ : Fin 64) := by
    funext a; apply Fin.ext
    match a with
    | ⟨0, _⟩ => show win4_1.index t (0 : Fin 2) * 128 + 1 * q.val = q.val; omega
    | ⟨1, _⟩ => show win4_1.index t (1 : Fin 2) * 64 + 1 * (j 1).val = win4_2.index t (1 : Fin 2) * 64 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg4.N) :
    (dat4 (F := Ideal) V c).flushed 2 t = ((cfg4.win 2).blk t).view.read (Elt Ideal) (G (V c main_v63) (V c main_arg7)) := by
  show (cfg4.win 2).cut (grid4.coords t) ((dat4 (F := Ideal) V c).after 2 t) = _
  rw [after4_2]
  unfold out4_2
  rw [View.canon_unit_zero hz]
  simp only [View.ld_unit_zero (S := S5000x128) hz, View.ld_unit_zero (S := S128x64) hz]
  funext j
  refine (pay_apply _ _ j).trans ?_
  exact blk_eq (V c main_v63) (V c main_arg7) t j

/-- An index of the array is in point `t`'s block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Every index of the array lies in the block of the point numbered by its row divided by 5000. -/
theorem cover (i : S50000x64.Idx) :
    ∃ t : Fin cfg4.N, (cfg4.win 2).flush t = true ∧ i ∈ ((cfg4.win 2).blk t).view.set := by
  have hi0 : (i 0).val < 50000 := idx2_lt0 i
  have hi1 : (i 1).val < 64 := idx2_lt1 i
  refine ⟨⟨(i 0).val / 5000, by show (i 0).val / 5000 < 10; omega⟩, flush4_2 _, ?_⟩
  rw [mem_blk]
  obtain ⟨e0, e1, e2, e3, e4, e5⟩ := idx_facts ⟨(i 0).val / 5000, by show (i 0).val / 5000 < 10; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 64 ≤ (i 1).val ∧ (i 1).val < win4_2.index _ (1 : Fin 2) * 64 + 64; rw [e5]; omega

/-- The output array after the region: `G` of the two arrays the region found. -/
theorem val (c : Dev nD) : (dat4 (F := Ideal) V c).arrAt 2 cfg4.N = G (V c main_v63) (V c main_arg7) :=
  (dat4 (F := Ideal) V c).arrAt_eq_of_cover 2 (G (V c main_v63) (V c main_arg7)) (fun t _ => flushed_eq V c t) cover

end Cert.KernelIdeal.Reg4

end
-- ==== Proof.Reg5.lean ====
/-
  Region 5 of the idealized kernel: bias and rectifier on a [50000, 64] array, ten blocks of 5000 rows.

  Each grid point loads its 5000 rows of the input and the one bias row, adds the row to every row of the block and
  takes the maximum with zero.  Block `t` of the output is rows `5000 t … 5000 t + 4999`, and the ten blocks tile the
  array, so after the region the output array holds, at `(r, j)`, `max (x (r, j) + b (0, j)) 0` of the arrays the
  region found.
-/
import proofs.«168961_j42296837931533_1_alg».proof.Proof.Gen.KernelIdeal.Frame
import proofs.«168961_j42296837931533_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg5

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its two arrays: row `b (0, ·)` added to every row of `a`, then the
    maximum with zero. -/
def G (a : S50000x64.Idx → Elt Ideal .f32) (b : S1x64.Idx → Elt Ideal .f32) : S50000x64.Idx → Elt Ideal .f32 :=
  Cert.Spec.biasRelu a (fun j => b (ix2 (0 : Fin 1) j))

theorem hz : (![0, 0] : Fin 2 → Nat) = fun _ => 0 := funext fun a => by fin_cases a <;> rfl

/-- The body's stored value at `(p, q)` of the block: the loaded block at `(p, q)` plus the bias row at `q`, against zero. -/
theorem pay_ix (x1 : Vec Ideal S1x64 .f32) (x0 : Vec Ideal S5000x64 .f32) (p : Fin 5000) (q : Fin 64) :
    k5_pay1 (F := Ideal) x1 x0 (ix2 p q) = max (x0 (ix2 p q) + x1 (ix2 (0 : Fin 1) q)) (Ideal.ofBits .f32 0x00000000#32) := by
  unfold k5_pay1
  rw [maximumf_apply, addf_apply, shapeCast_self, shapeCast_self, shapeCast_self]
  rw [broadcastTo_1b_ab_apply]
  rfl

theorem pay_apply (x1 : Vec Ideal S1x64 .f32) (x0 : Vec Ideal S5000x64 .f32) (j : S5000x64.Idx) :
    k5_pay1 (F := Ideal) x1 x0 j = max (x0 j + x1 (ix2 (0 : Fin 1) (⟨(j 1).val, idx2_lt1 j⟩ : Fin 64))) (Ideal.ofBits .f32 0x00000000#32) := by
  obtain ⟨p, q, rfl⟩ : ∃ (p : Fin 5000) (q : Fin 64), j = ix2 p q := ⟨j 0, j 1, eq_ix2 j⟩
  exact pay_ix x1 x0 p q

/-- The printed index maps over the grid: the input's block moves with the output's, the bias row's stays, the
    output's block index on the row axis is the point and on the column axis zero. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The block step over arbitrary arrays: the bias-and-rectifier of the two blocks at a block index is `G` of the
    arrays at that index of the array. -/
theorem blk_eq (X : S50000x64.Idx → Elt Ideal .f32) (Bv : S1x64.Idx → Elt Ideal .f32) (t : Fin cfg5.N) (j : S5000x64.Idx) :
    max (X (((cfg5.win 0).blk t).view.emb j)
        + Bv (((cfg5.win 1).blk t).view.emb (ix2 (0 : Fin 1) (⟨(j 1).val, idx2_lt1 j⟩ : Fin 64)))) (Ideal.ofBits .f32 0x00000000#32)
      = G X Bv (((cfg5.win 2).blk t).view.emb j) := by
  obtain ⟨e0, e1, e2, e3, e4, e5⟩ := idx_facts t
  show _ = max (X (((cfg5.win 2).blk t).view.emb j)
        + Bv (ix2 (0 : Fin 1) (⟨((((cfg5.win 2).blk t).view.emb j) 1).val, idx2_lt1 _⟩ : Fin 64))) (Ideal.ofBits .f32 0x00000000#32)
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (⟨(j 1).val, idx2_lt1 j⟩ : Fin 64))
      = ix2 (0 : Fin 1) (⟨((((cfg5.win 2).blk t).view.emb j) 1).val, idx2_lt1 _⟩ : Fin 64) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]

variable (V : (c : Dev nD) → (b : Ref sig .tc) → Buf (Elt Ideal) ((c : Thread nD τ).loc b))

/-- What point `t` writes back is block `t` of `G` of the arrays the region found. -/
theorem flushed_eq (c : Dev nD) (t : Fin cfg5.N) :
    (dat5 (F := Ideal) V c).flushed 2 t = ((cfg5.win 2).blk t).view.read (Elt Ideal) (G (V c main_v77) (V c main_v78)) := by
  show (cfg5.win 2).cut (grid5.coords t) ((dat5 (F := Ideal) V c).after 2 t) = _
  rw [after5_2]
  unfold out5_2
  rw [View.canon_unit_zero hz]
  simp only [View.ld_unit_zero (S := S5000x64) hz, View.ld_unit_zero (S := S1x64) hz]
  funext j
  refine (pay_apply _ _ j).trans ?_
  exact blk_eq (V c main_v77) (V c main_v78) t j

/-- An index of the array is in point `t`'s block iff each coordinate is in the block's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v79).slice (win5_2.rect t)).set ↔ _
  rw [View.set_slice_whole, Rect.mem_set_unit]
  exact Iff.rfl

/-- Every index of the array lies in the block of the point numbered by its row divided by 5000. -/
theorem cover (i : S50000x64.Idx) :
    ∃ t : Fin cfg5.N, (cfg5.win 2).flush t = true ∧ i ∈ ((cfg5.win 2).blk t).view.set := by
  have hi0 : (i 0).val < 50000 := idx2_lt0 i
  have hi1 : (i 1).val < 64 := idx2_lt1 i
  refine ⟨⟨(i 0).val / 5000, by show (i 0).val / 5000 < 10; omega⟩, flush5_2 _, ?_⟩
  rw [mem_blk]
  obtain ⟨e0, e1, e2, e3, e4, e5⟩ := idx_facts ⟨(i 0).val / 5000, by show (i 0).val / 5000 < 10; omega⟩
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 64 ≤ (i 1).val ∧ (i 1).val < win5_2.index _ (1 : Fin 2) * 64 + 64; rw [e5]; omega

/-- The output array after the region: `G` of the two arrays the region found. -/
theorem val (c : Dev nD) : (dat5 (F := Ideal) V c).arrAt 2 cfg5.N = G (V c main_v77) (V c main_v78) :=
  (dat5 (F := Ideal) V c).arrAt_eq_of_cover 2 (G (V c main_v77) (V c main_v78)) (fun t _ => flushed_eq V c t) cover

end Cert.KernelIdeal.Reg5

end
-- ==== Proof.Reg6.lean ====
/-
  Region 6 of the idealized kernel: one dense layer with bias and rectifier, `max (x · W + b) 0`, of a
  [1000, 64] array by a [64, 128] matrix and a [1, 128] bias row, in one grid point.

  The one grid point loads the whole of `x`, of `W` and of the bias row, rounds `x` and `W` to bf16 (the identity on
  the extended reals), multiplies them into a zero accumulator, adds the bias row to every row of the product and
  takes the maximum with zero.  Every block is its whole array, so after the region the output holds, at `(r, j)`,
  `max ((sum over q < 64 of x (r, q) · W (q, j)) + b (0, j)) 0` of the arrays the region found.
-/
import proofs.«168961_j42296837931533_1_alg».proof.Proof.Gen.KernelIdeal.Frame
import proofs.«168961_j42296837931533_1_alg».proof.Proof.LibPlainDot
import proofs.«168961_j42296837931533_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg6

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its three arrays: the matrix product, the row `b (0, ·)` added to every
    row of it, then the maximum with zero. -/
def G (x : S1000x64.Idx → Elt Ideal .f32) (w : S64x128.Idx → Elt Ideal .f32) (b : S1x128.Idx → Elt Ideal .f32) : S1000x128.Idx → Elt Ideal .f32 :=
  Cert.Spec.biasRelu (Cert.Spec.dense x w) (fun j => b (ix2 (0 : Fin 1) j))

theorem hz : (![0, 0] : Fin 2 → Nat) = fun _ => 0 := funext fun a => by fin_cases a <;> rfl

/-- The body's stored value at `(p, j)`: row `p` of the loaded `x` against column `j` of the matrix, plus the bias
    row at `j`, against zero. -/
theorem pay_ix (x0 : Vec Ideal S1000x64 .f32) (x1 : Vec Ideal S64x128 .f32) (x2 : Vec Ideal S1x128 .f32) (p : Fin 1000) (j : Fin 128) :
    k6_pay1 (F := Ideal) x0 x1 x2 (ix2 p j)
      = max ((∑ q : Fin 64, x0 (ix2 p q) * x1 (ix2 q j)) + x2 (ix2 (0 : Fin 1) j)) (Ideal.ofBits .f32 0x00000000#32) := by
  unfold k6_pay1
  rw [maximumf_apply, addf_apply, shapeCast_self, shapeCast_self, shapeCast_self]
  rw [broadcastTo_1b_ab_apply]
  rw [Cert.PlainDot.matmul_zero_ix2 dot_S1000x64_S64x128_S1000x128_1_0_0_1_n_n rfl none _ _ p j]
  rfl

theorem pay_apply (x0 : Vec Ideal S1000x64 .f32) (x1 : Vec Ideal S64x128 .f32) (x2 : Vec Ideal S1x128 .f32) (j : S1000x128.Idx) :
    k6_pay1 (F := Ideal) x0 x1 x2 j
      = max ((∑ q : Fin 64, x0 (ix2 (⟨(j 0).val, idx2_lt0 j⟩ : Fin 1000) q) * x1 (ix2 q (⟨(j 1).val, idx2_lt1 j⟩ : Fin 128)))
          + x2 (ix2 (0 : Fin 1) (⟨(j 1).val, idx2_lt1 j⟩ : Fin 128))) (Ideal.ofBits .f32 0x00000000#32) := by
  obtain ⟨p, j', rfl⟩ : ∃ (p : Fin 1000) (j' : Fin 128), j = ix2 p j' := ⟨j 0, j 1, eq_ix2 j⟩
  exact pay_ix x0 x1 x2 p j'

/-- The printed index maps over the grid: every window's block index is zero on both axes. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The body's value at an index of the point's block, over the three blocks read off any three arrays, is `G` of
    the arrays at the index the output block carries it to: each block is its whole array, carried to itself. -/
theorem blk_eq (X : S1000x64.Idx → Elt Ideal .f32) (W : S64x128.Idx → Elt Ideal .f32) (B : S1x128.Idx → Elt Ideal .f32)
    (t : Fin cfg6.N) (j : S1000x128.Idx) :
    max ((∑ q : Fin 64, X (((cfg6.win 0).blk t).view.emb (ix2 (⟨(j 0).val, idx2_lt0 j⟩ : Fin 1000) q))
          * W (((cfg6.win 1).blk t).view.emb (ix2 q (⟨(j 1).val, idx2_lt1 j⟩ : Fin 128))))
        + B (((cfg6.win 2).blk t).view.emb (ix2 (0 : Fin 1) (⟨(j 1).val, idx2_lt1 j⟩ : Fin 128)))) (Ideal.ofBits .f32 0x00000000#32)
      = G X W B (((cfg6.win 3).blk t).view.emb j) := by
  obtain ⟨e0, e1, e2, e3, e4, e5, e6, e7⟩ := idx_facts t
  show _ = max ((∑ q : Fin 64, X (ix2 (⟨((((cfg6.win 3).blk t).view.emb j) 0).val, idx2_lt0 _⟩ : Fin 1000) q) * W (ix2 q (⟨((((cfg6.win 3).blk t).view.emb j) 1).val, idx2_lt1 _⟩ : Fin 128)))
        + B (ix2 (0 : Fin 1) (⟨((((cfg6.win 3).blk t).view.emb j) 1).val, idx2_lt1 _⟩ : Fin 128))) (Ideal.ofBits .f32 0x00000000#32)
  have h0 : ∀ q : Fin 64, ((cfg6.win 0).blk t).view.emb (ix2 (⟨(j 0).val, idx2_lt0 j⟩ : Fin 1000) q) = ix2 (⟨((((cfg6.win 3).blk t).view.emb j) 0).val, idx2_lt0 _⟩ : Fin 1000) q := fun q => by
    funext a; apply Fin.ext
    match a with
    | ⟨0, _⟩ => show win6_0.index t (0 : Fin 2) * 1000 + 1 * (j 0).val = win6_3.index t (0 : Fin 2) * 1000 + 1 * (j 0).val; omega
    | ⟨1, _⟩ => show win6_0.index t (1 : Fin 2) * 64 + 1 * q.val = q.val; omega
  have h1 : ∀ q : Fin 64, ((cfg6.win 1).blk t).view.emb (ix2 q (⟨(j 1).val, idx2_lt1 j⟩ : Fin 128)) = ix2 q (⟨((((cfg6.win 3).blk t).view.emb j) 1).val, idx2_lt1 _⟩ : Fin 128) := fun q => by
    funext a; apply Fin.ext
    match a with
    | ⟨0, _⟩ => show win6_1.index t (0 : Fin 2) * 64 + 1 * q.val = q.val; omega
    | ⟨1, _⟩ => show win6_1.index t (1 : Fin 2) * 128 + 1 * (j 1).val = win6_3.index t (1 : Fin 2) * 128 + 1 * (j 1).val; omega
  have h2 : ((cfg6.win 2).blk t).view.emb (ix2 (0 : Fin 1) (⟨(j 1).val, idx2_lt1 j⟩ : Fin 128)) = ix2 (0 : Fin 1) (⟨((((cfg6.win 3).blk t).view.emb j) 1).val, idx2_lt1 _⟩ : Fin 128) := by
    funext a; apply Fin.ext
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega
  rw [h2]
  refine congrArg (fun z => max (z + _) _) (Finset.sum_congr rfl fun q _ => ?_)
  rw [h0 q, h1 q]

variable (V : (c : Dev nD) → (b : Ref sig .tc) → Buf (Elt Ideal) ((c : Thread nD τ).loc b))

/-- What the point writes back is its block (the whole array) of `G` of the arrays the region found. -/
theorem flushed_eq (c : Dev nD) (t : Fin cfg6.N) :
    (dat6 (F := Ideal) V c).flushed 3 t
      = ((cfg6.win 3).blk t).view.read (Elt Ideal) (G (V c main_v91) (V c main_arg9) (V c main_v92)) := by
  show (cfg6.win 3).cut (grid6.coords t) ((dat6 (F := Ideal) V c).after 3 t) = _
  rw [after6_3]
  unfold out6_3
  rw [View.canon_unit_zero hz]
  simp only [View.ld_unit_zero (S := S1000x64) hz, View.ld_unit_zero (S := S64x128) hz, View.ld_unit_zero (S := S1x128) hz]
  funext j
  refine (pay_apply _ _ _ j).trans ?_
  exact blk_eq (V c main_v91) (V c main_arg9) (V c main_v92) t j

/-- An index of the array is in the point's block iff each coordinate is in the block's range on its axis. -/
theorem mem_blk (t : Fin cfg6.N) (i : S1000x128.Idx) :
    i ∈ ((cfg6.win 3).blk t).view.set ↔ ∀ a : Fin 2, win6_3.index t a * S1000x128.size a ≤ (i a).val ∧ (i a).val < win6_3.index t a * S1000x128.size a + S1000x128.size a := by
  show i ∈ ((View.whole main_v93).slice (win6_3.rect t)).set ↔ _
  rw [View.set_slice_whole, Rect.mem_set_unit]
  exact Iff.rfl

/-- Every index of the array lies in the block of the one grid point. -/
theorem cover (i : S1000x128.Idx) :
    ∃ t : Fin cfg6.N, (cfg6.win 3).flush t = true ∧ i ∈ ((cfg6.win 3).blk t).view.set := by
  have hi0 : (i 0).val < 1000 := idx2_lt0 i
  have hi1 : (i 1).val < 128 := idx2_lt1 i
  refine ⟨⟨0, by show 0 < 1; omega⟩, flush6_3 _, ?_⟩
  rw [mem_blk]
  obtain ⟨e0, e1, e2, e3, e4, e5, e6, e7⟩ := idx_facts ⟨0, by show 0 < 1; omega⟩
  intro a
  match a with
  | ⟨0, _⟩ => show win6_3.index _ (0 : Fin 2) * 1000 ≤ (i 0).val ∧ (i 0).val < win6_3.index _ (0 : Fin 2) * 1000 + 1000; rw [e6]; omega
  | ⟨1, _⟩ => show win6_3.index _ (1 : Fin 2) * 128 ≤ (i 1).val ∧ (i 1).val < win6_3.index _ (1 : Fin 2) * 128 + 128; rw [e7]; omega

/-- The output array after the region: `G` of the three arrays the region found. -/
theorem val (c : Dev nD) : (dat6 (F := Ideal) V c).arrAt 3 cfg6.N = G (V c main_v91) (V c main_arg9) (V c main_v92) :=
  (dat6 (F := Ideal) V c).arrAt_eq_of_cover 3 (G (V c main_v91) (V c main_arg9) (V c main_v92)) (fun t _ => flushed_eq V c t) cover

end Cert.KernelIdeal.Reg6

end
-- ==== Proof.Reg7.lean ====
/-
  Region 7 of the idealized kernel: one dense layer with bias and rectifier, `max (x · W + b) 0`, of a
  [1000, 128] array by a [128, 64] matrix and a [1, 64] bias row, in one grid point.

  The one grid point loads the whole of `x`, of `W` and of the bias row, rounds `x` and `W` to bf16 (the identity on
  the extended reals), multiplies them into a zero accumulator, adds the bias row to every row of the product and
  takes the maximum with zero.  Every block is its whole array, so after the region the output holds, at `(r, j)`,
  `max ((sum over q < 128 of x (r, q) · W (q, j)) + b (0, j)) 0` of the arrays the region found.
-/
import proofs.«168961_j42296837931533_1_alg».proof.Proof.Gen.KernelIdeal.Frame
import proofs.«168961_j42296837931533_1_alg».proof.Proof.LibPlainDot
import proofs.«168961_j42296837931533_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg7

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its three arrays: the matrix product, the row `b (0, ·)` added to every
    row of it, then the maximum with zero. -/
def G (x : S1000x128.Idx → Elt Ideal .f32) (w : S128x64.Idx → Elt Ideal .f32) (b : S1x64.Idx → Elt Ideal .f32) : S1000x64.Idx → Elt Ideal .f32 :=
  Cert.Spec.biasRelu (Cert.Spec.dense x w) (fun j => b (ix2 (0 : Fin 1) j))

theorem hz : (![0, 0] : Fin 2 → Nat) = fun _ => 0 := funext fun a => by fin_cases a <;> rfl

/-- The body's stored value at `(p, j)`: row `p` of the loaded `x` against column `j` of the matrix, plus the bias
    row at `j`, against zero. -/
theorem pay_ix (x0 : Vec Ideal S1000x128 .f32) (x1 : Vec Ideal S128x64 .f32) (x2 : Vec Ideal S1x64 .f32) (p : Fin 1000) (j : Fin 64) :
    k7_pay1 (F := Ideal) x0 x1 x2 (ix2 p j)
      = max ((∑ q : Fin 128, x0 (ix2 p q) * x1 (ix2 q j)) + x2 (ix2 (0 : Fin 1) j)) (Ideal.ofBits .f32 0x00000000#32) := by
  unfold k7_pay1
  rw [maximumf_apply, addf_apply, shapeCast_self, shapeCast_self, shapeCast_self]
  rw [broadcastTo_1b_ab_apply]
  rw [Cert.PlainDot.matmul_zero_ix2 dot_S1000x128_S128x64_S1000x64_1_0_0_1_n_n rfl none _ _ p j]
  rfl

theorem pay_apply (x0 : Vec Ideal S1000x128 .f32) (x1 : Vec Ideal S128x64 .f32) (x2 : Vec Ideal S1x64 .f32) (j : S1000x64.Idx) :
    k7_pay1 (F := Ideal) x0 x1 x2 j
      = max ((∑ q : Fin 128, x0 (ix2 (⟨(j 0).val, idx2_lt0 j⟩ : Fin 1000) q) * x1 (ix2 q (⟨(j 1).val, idx2_lt1 j⟩ : Fin 64)))
          + x2 (ix2 (0 : Fin 1) (⟨(j 1).val, idx2_lt1 j⟩ : Fin 64))) (Ideal.ofBits .f32 0x00000000#32) := by
  obtain ⟨p, j', rfl⟩ : ∃ (p : Fin 1000) (j' : Fin 64), j = ix2 p j' := ⟨j 0, j 1, eq_ix2 j⟩
  exact pay_ix x0 x1 x2 p j'

/-- The printed index maps over the grid: every window's block index is zero on both axes. -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The body's value at an index of the point's block, over the three blocks read off any three arrays, is `G` of
    the arrays at the index the output block carries it to: each block is its whole array, carried to itself. -/
theorem blk_eq (X : S1000x128.Idx → Elt Ideal .f32) (W : S128x64.Idx → Elt Ideal .f32) (B : S1x64.Idx → Elt Ideal .f32)
    (t : Fin cfg7.N) (j : S1000x64.Idx) :
    max ((∑ q : Fin 128, X (((cfg7.win 0).blk t).view.emb (ix2 (⟨(j 0).val, idx2_lt0 j⟩ : Fin 1000) q))
          * W (((cfg7.win 1).blk t).view.emb (ix2 q (⟨(j 1).val, idx2_lt1 j⟩ : Fin 64))))
        + B (((cfg7.win 2).blk t).view.emb (ix2 (0 : Fin 1) (⟨(j 1).val, idx2_lt1 j⟩ : Fin 64)))) (Ideal.ofBits .f32 0x00000000#32)
      = G X W B (((cfg7.win 3).blk t).view.emb j) := by
  obtain ⟨e0, e1, e2, e3, e4, e5, e6, e7⟩ := idx_facts t
  show _ = max ((∑ q : Fin 128, X (ix2 (⟨((((cfg7.win 3).blk t).view.emb j) 0).val, idx2_lt0 _⟩ : Fin 1000) q) * W (ix2 q (⟨((((cfg7.win 3).blk t).view.emb j) 1).val, idx2_lt1 _⟩ : Fin 64)))
        + B (ix2 (0 : Fin 1) (⟨((((cfg7.win 3).blk t).view.emb j) 1).val, idx2_lt1 _⟩ : Fin 64))) (Ideal.ofBits .f32 0x00000000#32)
  have h0 : ∀ q : Fin 128, ((cfg7.win 0).blk t).view.emb (ix2 (⟨(j 0).val, idx2_lt0 j⟩ : Fin 1000) q) = ix2 (⟨((((cfg7.win 3).blk t).view.emb j) 0).val, idx2_lt0 _⟩ : Fin 1000) q := fun q => by
    funext a; apply Fin.ext
    match a with
    | ⟨0, _⟩ => show win7_0.index t (0 : Fin 2) * 1000 + 1 * (j 0).val = win7_3.index t (0 : Fin 2) * 1000 + 1 * (j 0).val; omega
    | ⟨1, _⟩ => show win7_0.index t (1 : Fin 2) * 128 + 1 * q.val = q.val; omega
  have h1 : ∀ q : Fin 128, ((cfg7.win 1).blk t).view.emb (ix2 q (⟨(j 1).val, idx2_lt1 j⟩ : Fin 64)) = ix2 q (⟨((((cfg7.win 3).blk t).view.emb j) 1).val, idx2_lt1 _⟩ : Fin 64) := fun q => by
    funext a; apply Fin.ext
    match a with
    | ⟨0, _⟩ => show win7_1.index t (0 : Fin 2) * 128 + 1 * q.val = q.val; omega
    | ⟨1, _⟩ => show win7_1.index t (1 : Fin 2) * 64 + 1 * (j 1).val = win7_3.index t (1 : Fin 2) * 64 + 1 * (j 1).val; omega
  have h2 : ((cfg7.win 2).blk t).view.emb (ix2 (0 : Fin 1) (⟨(j 1).val, idx2_lt1 j⟩ : Fin 64)) = ix2 (0 : Fin 1) (⟨((((cfg7.win 3).blk t).view.emb j) 1).val, idx2_lt1 _⟩ : Fin 64) := by
    funext a; apply Fin.ext
    match a with
    | ⟨0, _⟩ => show win7_2.index t (0 : Fin 2) * 1 + 1 * 0 = 0; omega
    | ⟨1, _⟩ => show win7_2.index t (1 : Fin 2) * 64 + 1 * (j 1).val = win7_3.index t (1 : Fin 2) * 64 + 1 * (j 1).val; omega
  rw [h2]
  refine congrArg (fun z => max (z + _) _) (Finset.sum_congr rfl fun q _ => ?_)
  rw [h0 q, h1 q]

variable (V : (c : Dev nD) → (b : Ref sig .tc) → Buf (Elt Ideal) ((c : Thread nD τ).loc b))

/-- What the point writes back is its block (the whole array) of `G` of the arrays the region found. -/
theorem flushed_eq (c : Dev nD) (t : Fin cfg7.N) :
    (dat7 (F := Ideal) V c).flushed 3 t
      = ((cfg7.win 3).blk t).view.read (Elt Ideal) (G (V c main_v93) (V c main_arg11) (V c main_v94)) := by
  show (cfg7.win 3).cut (grid7.coords t) ((dat7 (F := Ideal) V c).after 3 t) = _
  rw [after7_3]
  unfold out7_3
  rw [View.canon_unit_zero hz]
  simp only [View.ld_unit_zero (S := S1000x128) hz, View.ld_unit_zero (S := S128x64) hz, View.ld_unit_zero (S := S1x64) hz]
  funext j
  refine (pay_apply _ _ _ j).trans ?_
  exact blk_eq (V c main_v93) (V c main_arg11) (V c main_v94) t j

/-- An index of the array is in the point's block iff each coordinate is in the block's range on its axis. -/
theorem mem_blk (t : Fin cfg7.N) (i : S1000x64.Idx) :
    i ∈ ((cfg7.win 3).blk t).view.set ↔ ∀ a : Fin 2, win7_3.index t a * S1000x64.size a ≤ (i a).val ∧ (i a).val < win7_3.index t a * S1000x64.size a + S1000x64.size a := by
  show i ∈ ((View.whole main_v95).slice (win7_3.rect t)).set ↔ _
  rw [View.set_slice_whole, Rect.mem_set_unit]
  exact Iff.rfl

/-- Every index of the array lies in the block of the one grid point. -/
theorem cover (i : S1000x64.Idx) :
    ∃ t : Fin cfg7.N, (cfg7.win 3).flush t = true ∧ i ∈ ((cfg7.win 3).blk t).view.set := by
  have hi0 : (i 0).val < 1000 := idx2_lt0 i
  have hi1 : (i 1).val < 64 := idx2_lt1 i
  refine ⟨⟨0, by show 0 < 1; omega⟩, flush7_3 _, ?_⟩
  rw [mem_blk]
  obtain ⟨e0, e1, e2, e3, e4, e5, e6, e7⟩ := idx_facts ⟨0, by show 0 < 1; omega⟩
  intro a
  match a with
  | ⟨0, _⟩ => show win7_3.index _ (0 : Fin 2) * 1000 ≤ (i 0).val ∧ (i 0).val < win7_3.index _ (0 : Fin 2) * 1000 + 1000; rw [e6]; omega
  | ⟨1, _⟩ => show win7_3.index _ (1 : Fin 2) * 64 ≤ (i 1).val ∧ (i 1).val < win7_3.index _ (1 : Fin 2) * 64 + 64; rw [e7]; omega

/-- The output array after the region: `G` of the three arrays the region found. -/
theorem val (c : Dev nD) : (dat7 (F := Ideal) V c).arrAt 3 cfg7.N = G (V c main_v93) (V c main_arg11) (V c main_v94) :=
  (dat7 (F := Ideal) V c).arrAt_eq_of_cover 3 (G (V c main_v93) (V c main_arg11) (V c main_v94)) (fun t _ => flushed_eq V c t) cover

end Cert.KernelIdeal.Reg7

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Reg8.lean ====
/-
  Region 8 of the idealized kernel: layer normalisation of a [1000, 64] array, one grid point.

  The one grid point loads the whole array and the two [1, 64] rows of the affine map.  Per row it sums the 64 lanes
  and divides by the literal 64 (the mean), subtracts the mean from every entry, sums the squared deviations and
  divides by 64 (the variance), adds the small literal and takes the reciprocal square root; each deviation is
  multiplied by that, then by the first row's entry of its column, and the second row's entry is added.  The one
  block is the whole output array, so after the region the output holds the specification's layer normalisation of
  the arrays the region found.
-/
import proofs.«168961_j42296837931533_1_alg».proof.Proof.Gen.KernelIdeal.Frame
import proofs.«168961_j42296837931533_1_alg».proof.Proof.Spec
import proofs.«168961_j42296837931533_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg8

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The region's result as one function of its three arrays: the layer normalisation of `x` with the affine map
    whose scale is row `g (0, ·)` and whose shift is row `b (0, ·)`. -/
def G (x : S1000x64.Idx → Elt Ideal .f32) (g b : S1x64.Idx → Elt Ideal .f32) : S1000x64.Idx → Elt Ideal .f32 :=
  Cert.Spec.layerNorm x (fun j => g (ix2 (0 : Fin 1) j)) (fun j => b (ix2 (0 : Fin 1) j))

theorem hz : (![0, 0] : Fin 2 → Nat) = fun _ => 0 := funext fun a => by fin_cases a <;> rfl

/-- The index the lane reduction reads for row `p` and lane `k` is `(p, k)`. -/
theorem lift_ix (p : Fin 1000) (k : Fin 64) : reduces_S1000x64_S1000.lift (ix1 p) k = ix2 p k :=
  funext fun a => Fin.ext (by match a with | ⟨0, _⟩ => rfl | ⟨1, _⟩ => rfl)

/-- The lane sum of row `p`. -/
theorem rowsum_ix (v : FVec Ideal S1000x64 .f32) (p : Fin 1000) :
    multiReduction (F := Ideal) .add [1] S1000 v 0x00000000#32 reduces_S1000x64_S1000 (.inl rfl) rfl (ix1 p)
      = ∑ q : Fin 64, v (ix2 p q) := by
  refine (Ideal.multiReduction_add_single v _ reduces_S1000x64_S1000 _ _ (ix1 p)).trans ?_
  exact Finset.sum_congr rfl fun q _ => congrArg v (lift_ix p q)

/-- A lane sum kept as a column and divided by the literal 64, at row `p`: the sum started from the literal zero
    (which is the number zero) over the literal. -/
theorem mean_ix (v : FVec Ideal S1000x64 .f32) (p : Fin 1000) (u : Fin 1) :
    divf (shapeCast S1000x1 (multiReduction (F := Ideal) .add [1] S1000 v 0x00000000#32 reduces_S1000x64_S1000 (.inl rfl) rfl)
        shapeCasts_S1000_S1000x1) (broadcast S1000x1 (Scalar.ofBits (F := Ideal) .f32 0x42800000#32)) (ix2 p u)
      = Ideal.div (Ideal.ofBits .f32 0x00000000#32 + ∑ q : Fin 64, v (ix2 p q)) (Ideal.ofBits .f32 0x42800000#32) := by
  rw [divf_apply, Cert.LibKeepdims.shapeCast_a_a1_apply, broadcast_apply, rowsum_ix, Ideal.ofBits_zero_f32, zero_add]
  rfl

/-- The mean column as the body computes it: the lane sums kept as a column, over the literal 64. -/
local notation "meanCol(" v ")" =>
  divf (shapeCast S1000x1 (multiReduction (F := Ideal) FKind.add [1] S1000 v 0x00000000#32 reduces_S1000x64_S1000 (Or.inl rfl) rfl)
    shapeCasts_S1000_S1000x1) (broadcast S1000x1 (Scalar.ofBits (F := Ideal) FTy.f32 0x42800000#32))

/-- The deviation from the mean at `(p, q)`: the entry minus the mean column broadcast along the row. -/
theorem dev_ix (v : FVec Ideal S1000x64 .f32) (p : Fin 1000) (q : Fin 64) :
    subf v (broadcastTo S1000x64 meanCol(v) broadcasts_S1000x1_S1000x64) (ix2 p q) = v (ix2 p q) - Cert.Spec.rowMean v p := by
  rw [subf_apply, Cert.LibKeepdims.broadcastTo_a1_ab_apply, mean_ix]
  rfl

/-- The variance column at row `p`: the lane sum of the squared deviations, over the literal 64. -/
theorem var_ix (v : FVec Ideal S1000x64 .f32) (p : Fin 1000) (u : Fin 1) :
    meanCol(mulf (subf v (broadcastTo S1000x64 meanCol(v) broadcasts_S1000x1_S1000x64))
        (subf v (broadcastTo S1000x64 meanCol(v) broadcasts_S1000x1_S1000x64))) (ix2 p u)
      = Cert.Spec.rowVar v p := by
  rw [mean_ix]
  unfold Cert.Spec.rowVar
  refine congrArg (fun s => Ideal.div (Ideal.ofBits .f32 0x00000000#32 + s) (Ideal.ofBits .f32 0x42800000#32)) ?_
  exact Finset.sum_congr rfl fun k _ => by rw [mulf_apply, dev_ix]

/-- The reciprocal square root is taken entry by entry. -/
theorem rsqrt_apply {s : Shape} (a : FVec Ideal s .f32) (i : s.Idx) : rsqrt a i = Ideal.rsqrt (a i) := rfl

/-- The body's stored value at `(p, q)`: the specification's layer normalisation of the loaded array with the two
    loaded rows, at `(p, q)`. -/
theorem pay_ix (x : Vec Ideal S1000x64 .f32) (g b : Vec Ideal S1x64 .f32) (p : Fin 1000) (q : Fin 64) :
    k8_pay1 (F := Ideal) x g b (ix2 p q)
      = Cert.Spec.layerNorm x (fun j => g (ix2 (0 : Fin 1) j)) (fun j => b (ix2 (0 : Fin 1) j)) (ix2 p q) := by
  rw [Cert.Spec.layerNorm_ix2]
  unfold k8_pay1
  rw [shapeCast_self, shapeCast_self, shapeCast_self, shapeCast_self, shapeCast_self]
  rw [addf_apply, mulf_apply, mulf_apply, broadcastTo_1b_ab_apply, broadcastTo_1b_ab_apply, dev_ix]
  rw [Cert.LibKeepdims.broadcastTo_a1_ab_apply, rsqrt_apply, addf_apply, var_ix, broadcast_apply]
  rfl

theorem pay_apply (x : Vec Ideal S1000x64 .f32) (g b : Vec Ideal S1x64 .f32) (j : S1000x64.Idx) :
    k8_pay1 (F := Ideal) x g b j
      = Cert.Spec.layerNorm x (fun j => g (ix2 (0 : Fin 1) j)) (fun j => b (ix2 (0 : Fin 1) j)) j := by
  obtain ⟨p, q, rfl⟩ : ∃ (p : Fin 1000) (q : Fin 64), j = ix2 p q := ⟨j 0, j 1, eq_ix2 j⟩
  exact pay_ix x g b p q

/-- The printed index maps at the one grid point: every window's block index is zero on both axes. -/
theorem idx_facts : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

variable (V : (c : Dev nD) → (b : Ref sig .tc) → Buf (Elt Ideal) ((c : Thread nD τ).loc b))

/-- What the one point writes back is the (whole-array) block of `G` of the arrays the region found: each window's
    block is its whole array read at the identity, so the loaded blocks are the arrays themselves. -/
theorem flushed_eq (c : Dev nD) (t : Fin cfg8.N) :
    (dat8 (F := Ideal) V c).flushed 3 t
      = ((cfg8.win 3).blk t).view.read (Elt Ideal) (G (V c main_v95) (V c main_v96) (V c main_v97)) := by
  show (cfg8.win 3).cut (grid8.coords t) ((dat8 (F := Ideal) V c).after 3 t) = _
  rw [after8_3]
  unfold out8_3
  rw [View.canon_unit_zero hz]
  simp only [View.ld_unit_zero (S := S1000x64) hz, View.ld_unit_zero (S := S1x64) hz]
  obtain ⟨e0, e1, e2, e3, e4, e5, e6, e7⟩ := idx_facts t
  have h0 : ∀ i : S1000x64.Idx, ((cfg8.win 0).blk t).view.emb i = i := fun i => by
    funext a; apply Fin.ext
    match a with
    | ⟨0, _⟩ => show win8_0.index t (0 : Fin 2) * 1000 + 1 * (i 0).val = (i 0).val; omega
    | ⟨1, _⟩ => show win8_0.index t (1 : Fin 2) * 64 + 1 * (i 1).val = (i 1).val; omega
  have h1 : ∀ i : S1x64.Idx, ((cfg8.win 1).blk t).view.emb i = i := fun i => by
    funext a; apply Fin.ext
    match a with
    | ⟨0, _⟩ => show win8_1.index t (0 : Fin 2) * 1 + 1 * (i 0).val = (i 0).val; omega
    | ⟨1, _⟩ => show win8_1.index t (1 : Fin 2) * 64 + 1 * (i 1).val = (i 1).val; omega
  have h2 : ∀ i : S1x64.Idx, ((cfg8.win 2).blk t).view.emb i = i := fun i => by
    funext a; apply Fin.ext
    match a with
    | ⟨0, _⟩ => show win8_2.index t (0 : Fin 2) * 1 + 1 * (i 0).val = (i 0).val; omega
    | ⟨1, _⟩ => show win8_2.index t (1 : Fin 2) * 64 + 1 * (i 1).val = (i 1).val; omega
  have h3 : ∀ i : S1000x64.Idx, ((cfg8.win 3).blk t).view.emb i = i := fun i => by
    funext a; apply Fin.ext
    match a with
    | ⟨0, _⟩ => show win8_3.index t (0 : Fin 2) * 1000 + 1 * (i 0).val = (i 0).val; omega
    | ⟨1, _⟩ => show win8_3.index t (1 : Fin 2) * 64 + 1 * (i 1).val = (i 1).val; omega
  have b0 : iblk8 (F := Ideal) V c 0 t = V c main_v95 := funext fun i => congrArg (V c main_v95) (h0 i)
  have b1 : iblk8 (F := Ideal) V c 1 t = V c main_v96 := funext fun i => congrArg (V c main_v96) (h1 i)
  have b2 : iblk8 (F := Ideal) V c 2 t = V c main_v97 := funext fun i => congrArg (V c main_v97) (h2 i)
  funext j
  refine (pay_apply _ _ _ j).trans ?_
  rw [b0, b1, b2]
  show G (V c main_v95) (V c main_v96) (V c main_v97) j
    = G (V c main_v95) (V c main_v96) (V c main_v97) (((cfg8.win 3).blk t).view.emb j)
  rw [h3]

/-- An index of the array is in the one point's block iff each coordinate is in the block's range on its axis. -/
theorem mem_blk (t : Fin cfg8.N) (i : S1000x64.Idx) :
    i ∈ ((cfg8.win 3).blk t).view.set ↔ ∀ a : Fin 2, win8_3.index t a * S1000x64.size a ≤ (i a).val ∧ (i a).val < win8_3.index t a * S1000x64.size a + S1000x64.size a := by
  show i ∈ ((View.whole main_v98).slice (win8_3.rect t)).set ↔ _
  rw [View.set_slice_whole, Rect.mem_set_unit]
  exact Iff.rfl

/-- Every index of the array lies in the block of the one point. -/
theorem cover (i : S1000x64.Idx) :
    ∃ t : Fin cfg8.N, (cfg8.win 3).flush t = true ∧ i ∈ ((cfg8.win 3).blk t).view.set := by
  have hi0 : (i 0).val < 1000 := idx2_lt0 i
  have hi1 : (i 1).val < 64 := idx2_lt1 i
  refine ⟨⟨0, by show 0 < 1; omega⟩, flush8_3 _, ?_⟩
  rw [mem_blk]
  obtain ⟨e0, e1, e2, e3, e4, e5, e6, e7⟩ := idx_facts ⟨0, by show 0 < 1; omega⟩
  intro a
  match a with
  | ⟨0, _⟩ => show win8_3.index _ (0 : Fin 2) * 1000 ≤ (i 0).val ∧ (i 0).val < win8_3.index _ (0 : Fin 2) * 1000 + 1000; rw [e6]; omega
  | ⟨1, _⟩ => show win8_3.index _ (1 : Fin 2) * 64 ≤ (i 1).val ∧ (i 1).val < win8_3.index _ (1 : Fin 2) * 64 + 64; rw [e7]; omega

/-- The output array after the region: `G` of the three arrays the region found. -/
theorem val (c : Dev nD) :
    (dat8 (F := Ideal) V c).arrAt 3 cfg8.N = G (V c main_v95) (V c main_v96) (V c main_v97) :=
  (dat8 (F := Ideal) V c).arrAt_eq_of_cover 3 (G (V c main_v95) (V c main_v96) (V c main_v97)) (fun t _ => flushed_eq V c t) cover

end Cert.KernelIdeal.Reg8

end
-- ==== Proof.KVal.lean ====
/-
  The idealized kernel's result array, read down the fold of buffer contents.

  The result `main_v98` is region 8's output; region 8 read region 7's output and two reshaped argument vectors; and
  so on down to the argument arrays.  Between the regions the host stretches are, operation for operation, the
  reference's own (gather the transformed rows at the edges' sources, scale by the edge coefficient, add up at the
  targets; pool per graph), so each is stated as the reference's stage function of the one array it transforms.
  Each region's output is its value function (`RegK.val`) of the arrays it found at entry, and those are the values
  one step earlier; the composition is the network of the specification.
-/
import proofs.«168961_j42296837931533_1_alg».proof.Proof.Gen.KernelIdeal.Frame
import proofs.«168961_j42296837931533_1_alg».proof.Proof.RefGlue
import proofs.«168961_j42296837931533_1_alg».proof.Proof.KStageA
import proofs.«168961_j42296837931533_1_alg».proof.Proof.KKeep
import proofs.«168961_j42296837931533_1_alg».proof.Proof.Reg0
import proofs.«168961_j42296837931533_1_alg».proof.Proof.Reg1
import proofs.«168961_j42296837931533_1_alg».proof.Proof.Reg2
import proofs.«168961_j42296837931533_1_alg».proof.Proof.Reg3
import proofs.«168961_j42296837931533_1_alg».proof.Proof.Reg4
import proofs.«168961_j42296837931533_1_alg».proof.Proof.Reg5
import proofs.«168961_j42296837931533_1_alg».proof.Proof.Reg6
import proofs.«168961_j42296837931533_1_alg».proof.Proof.Reg7
import proofs.«168961_j42296837931533_1_alg».proof.Proof.Reg8
import Idealize.ShloMosaic.Lib.ValueLayout

set_option maxRecDepth 16384

noncomputable section

namespace Cert.KernelIdeal.KVal

open Cert.KernelIdeal Cert.KernelIdeal.Gen Cert.KernelIdeal.KKeep
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-! ## The values along the network, from the argument arrays -/

/-- A bias vector as the one-row array a region's window stages. -/
abbrev row64 (v : S64.Idx → Elt Ideal .f32) : S1x64.Idx → Elt Ideal .f32 := shapeCast S1x64 v shapeCasts_S64_S1x64
abbrev row128 (v : S128.Idx → Elt Ideal .f32) : S1x128.Idx → Elt Ideal .f32 := shapeCast S1x128 v shapeCasts_S128_S1x128

def h0 (c : Dev nD) : S50000x64.Idx → Elt Ideal .f32 := Reg0.G (m ((c : Thread nD τ).loc main_arg0)) (m ((c : Thread nD τ).loc main_arg3))
def a1 (c : Dev nD) : S50000x64.Idx → Elt Ideal .f32 := Cert.ReferenceIdeal.Glue.agg1 (m ((c : Thread nD τ).loc main_arg1)) (h0 m c)
def h1 (c : Dev nD) : S50000x64.Idx → Elt Ideal .f32 := Reg1.G (a1 m c) (row64 (m ((c : Thread nD τ).loc main_arg4)))
def h2 (c : Dev nD) : S50000x128.Idx → Elt Ideal .f32 := Reg2.G (h1 m c) (m ((c : Thread nD τ).loc main_arg5))
def a2 (c : Dev nD) : S50000x128.Idx → Elt Ideal .f32 := Cert.ReferenceIdeal.Glue.agg2 (m ((c : Thread nD τ).loc main_arg1)) (h2 m c)
def h3 (c : Dev nD) : S50000x128.Idx → Elt Ideal .f32 := Reg3.G (a2 m c) (row128 (m ((c : Thread nD τ).loc main_arg6)))
def h4 (c : Dev nD) : S50000x64.Idx → Elt Ideal .f32 := Reg4.G (h3 m c) (m ((c : Thread nD τ).loc main_arg7))
def a3 (c : Dev nD) : S50000x64.Idx → Elt Ideal .f32 := Cert.ReferenceIdeal.Glue.agg3 (m ((c : Thread nD τ).loc main_arg1)) (h4 m c)
def h5 (c : Dev nD) : S50000x64.Idx → Elt Ideal .f32 := Reg5.G (a3 m c) (row64 (m ((c : Thread nD τ).loc main_arg8)))
def g0 (c : Dev nD) : S1000x64.Idx → Elt Ideal .f32 := Cert.ReferenceIdeal.Glue.pool (m ((c : Thread nD τ).loc main_arg2)) (h5 m c)
def g1 (c : Dev nD) : S1000x128.Idx → Elt Ideal .f32 := Reg6.G (g0 m c) (m ((c : Thread nD τ).loc main_arg9)) (row128 (m ((c : Thread nD τ).loc main_arg10)))
def g2 (c : Dev nD) : S1000x64.Idx → Elt Ideal .f32 := Reg7.G (g1 m c) (m ((c : Thread nD τ).loc main_arg11)) (row64 (m ((c : Thread nD τ).loc main_arg12)))
def out (c : Dev nD) : S1000x64.Idx → Elt Ideal .f32 := Reg8.G (g2 m c) (row64 (m ((c : Thread nD τ).loc main_arg13))) (row64 (m ((c : Thread nD τ).loc main_arg14)))

/-! ## Each buffer at the boundary where the next segment reads it -/

theorem L32 (c : Dev nD) : W4 m ρ c (Proc.devRef .tc main_v32) = h0 m c := by
  refine (W4_arr m ρ c 2).trans ((Reg0.val (V3 m ρ) c).trans ?_)
  have e0 : V3 m ρ c main_arg0 = (m ((c : Thread nD τ).loc main_arg0)) := A_0 m ρ c
  have e1 : V3 m ρ c main_arg3 = (m ((c : Thread nD τ).loc main_arg3)) := A_3 m ρ c
  rw [e0, e1]
  rfl

set_option maxHeartbeats 400000 in
theorem L45 (c : Dev nD) : W5 m ρ c (Proc.devRef .tc main_v45) = a1 m c := by
  show StableHlo.after hostOps1 (W4 m ρ c) (Proc.devRef .tc main_v45) = _
  after_results
  rw [E_3_4 m ρ c, E_6_4 m ρ c, E_31_4 m ρ c, L32 m ρ c]
  unfold a1
  generalize h0 m c = h
  generalize m ((c : Thread nD τ).loc main_arg1) = x1
  rfl

theorem L46 (c : Dev nD) : W5 m ρ c (Proc.devRef .tc main_v46) = row64 (m ((c : Thread nD τ).loc main_arg4)) := by
  show StableHlo.after hostOps1 (W4 m ρ c) (Proc.devRef .tc main_v46) = _
  after_results
  rw [A_4 m ρ c]
  rfl

theorem L47 (c : Dev nD) : W6 m ρ c (Proc.devRef .tc main_v47) = h1 m c := by
  refine (W6_arr m ρ c 2).trans ((Reg1.val (V5 m ρ) c).trans ?_)
  have e0 : V5 m ρ c main_v45 = a1 m c := L45 m ρ c
  have e1 : V5 m ρ c main_v46 = row64 (m ((c : Thread nD τ).loc main_arg4)) := L46 m ρ c
  rw [e0, e1]
  rfl

theorem L48 (c : Dev nD) : W7 m ρ c (Proc.devRef .tc main_v48) = h2 m c := by
  refine (W7_arr m ρ c 2).trans ((Reg2.val (V6 m ρ) c).trans ?_)
  have e0 : V6 m ρ c main_v47 = h1 m c := L47 m ρ c
  have e1 : V6 m ρ c main_arg5 = (m ((c : Thread nD τ).loc main_arg5)) := A_5 m ρ c
  rw [e0, e1]
  rfl

set_option maxHeartbeats 400000 in
theorem L61 (c : Dev nD) : W8 m ρ c (Proc.devRef .tc main_v61) = a2 m c := by
  show StableHlo.after hostOps3 (W7 m ρ c) (Proc.devRef .tc main_v61) = _
  after_results
  rw [E_3_7 m ρ c, E_6_7 m ρ c, E_31_7 m ρ c, L48 m ρ c]
  unfold a2
  generalize h2 m c = h
  generalize m ((c : Thread nD τ).loc main_arg1) = x1
  rfl

theorem L62 (c : Dev nD) : W8 m ρ c (Proc.devRef .tc main_v62) = row128 (m ((c : Thread nD τ).loc main_arg6)) := by
  show StableHlo.after hostOps3 (W7 m ρ c) (Proc.devRef .tc main_v62) = _
  after_results
  rw [A_6 m ρ c]
  rfl

theorem L63 (c : Dev nD) : W9 m ρ c (Proc.devRef .tc main_v63) = h3 m c := by
  refine (W9_arr m ρ c 2).trans ((Reg3.val (V8 m ρ) c).trans ?_)
  have e0 : V8 m ρ c main_v61 = a2 m c := L61 m ρ c
  have e1 : V8 m ρ c main_v62 = row128 (m ((c : Thread nD τ).loc main_arg6)) := L62 m ρ c
  rw [e0, e1]
  rfl

theorem L64 (c : Dev nD) : W10 m ρ c (Proc.devRef .tc main_v64) = h4 m c := by
  refine (W10_arr m ρ c 2).trans ((Reg4.val (V9 m ρ) c).trans ?_)
  have e0 : V9 m ρ c main_v63 = h3 m c := L63 m ρ c
  have e1 : V9 m ρ c main_arg7 = (m ((c : Thread nD τ).loc main_arg7)) := A_7 m ρ c
  rw [e0, e1]
  rfl

set_option maxHeartbeats 400000 in
theorem L77 (c : Dev nD) : W11 m ρ c (Proc.devRef .tc main_v77) = a3 m c := by
  show StableHlo.after hostOps5 (W10 m ρ c) (Proc.devRef .tc main_v77) = _
  after_results
  rw [E_3_10 m ρ c, E_6_10 m ρ c, E_31_10 m ρ c, L64 m ρ c]
  unfold a3
  generalize h4 m c = h
  generalize m ((c : Thread nD τ).loc main_arg1) = x1
  rfl

theorem L78 (c : Dev nD) : W11 m ρ c (Proc.devRef .tc main_v78) = row64 (m ((c : Thread nD τ).loc main_arg8)) := by
  show StableHlo.after hostOps5 (W10 m ρ c) (Proc.devRef .tc main_v78) = _
  after_results
  rw [A_8 m ρ c]
  rfl

theorem L79 (c : Dev nD) : W12 m ρ c (Proc.devRef .tc main_v79) = h5 m c := by
  refine (W12_arr m ρ c 2).trans ((Reg5.val (V11 m ρ) c).trans ?_)
  have e0 : V11 m ρ c main_v77 = a3 m c := L77 m ρ c
  have e1 : V11 m ρ c main_v78 = row64 (m ((c : Thread nD τ).loc main_arg8)) := L78 m ρ c
  rw [e0, e1]
  rfl

set_option maxHeartbeats 400000 in
theorem L91 (c : Dev nD) : W13 m ρ c (Proc.devRef .tc main_v91) = g0 m c := by
  show StableHlo.after hostOps6 (W12 m ρ c) (Proc.devRef .tc main_v91) = _
  after_results
  rw [A_2 m ρ c, L79 m ρ c]
  unfold g0
  generalize h5 m c = h
  generalize m ((c : Thread nD τ).loc main_arg2) = x2
  rfl

theorem L92 (c : Dev nD) : W13 m ρ c (Proc.devRef .tc main_v92) = row128 (m ((c : Thread nD τ).loc main_arg10)) := by
  show StableHlo.after hostOps6 (W12 m ρ c) (Proc.devRef .tc main_v92) = _
  after_results
  rw [A_10 m ρ c]
  rfl

theorem L93 (c : Dev nD) : W14 m ρ c (Proc.devRef .tc main_v93) = g1 m c := by
  refine (W14_arr m ρ c 3).trans ((Reg6.val (V13 m ρ) c).trans ?_)
  have e0 : V13 m ρ c main_v91 = g0 m c := L91 m ρ c
  have e1 : V13 m ρ c main_arg9 = (m ((c : Thread nD τ).loc main_arg9)) := A_9 m ρ c
  have e2 : V13 m ρ c main_v92 = row128 (m ((c : Thread nD τ).loc main_arg10)) := L92 m ρ c
  rw [e0, e1, e2]
  rfl

theorem L93' (c : Dev nD) : W15 m ρ c (Proc.devRef .tc main_v93) = g1 m c :=
  (by keep_tac hostOps7 : W15 m ρ c (Proc.devRef .tc main_v93) = W14 m ρ c (Proc.devRef .tc main_v93)).trans (L93 m ρ c)

theorem L94 (c : Dev nD) : W15 m ρ c (Proc.devRef .tc main_v94) = row64 (m ((c : Thread nD τ).loc main_arg12)) := by
  show StableHlo.after hostOps7 (W14 m ρ c) (Proc.devRef .tc main_v94) = _
  after_results
  rw [A_12 m ρ c]
  rfl

theorem L95 (c : Dev nD) : W16 m ρ c (Proc.devRef .tc main_v95) = g2 m c := by
  refine (W16_arr m ρ c 3).trans ((Reg7.val (V15 m ρ) c).trans ?_)
  have e0 : V15 m ρ c main_v93 = g1 m c := L93' m ρ c
  have e1 : V15 m ρ c main_arg11 = (m ((c : Thread nD τ).loc main_arg11)) := A_11 m ρ c
  have e2 : V15 m ρ c main_v94 = row64 (m ((c : Thread nD τ).loc main_arg12)) := L94 m ρ c
  rw [e0, e1, e2]
  rfl

theorem L95' (c : Dev nD) : W17 m ρ c (Proc.devRef .tc main_v95) = g2 m c :=
  (by keep_tac hostOps8 : W17 m ρ c (Proc.devRef .tc main_v95) = W16 m ρ c (Proc.devRef .tc main_v95)).trans (L95 m ρ c)

theorem L96 (c : Dev nD) : W17 m ρ c (Proc.devRef .tc main_v96) = row64 (m ((c : Thread nD τ).loc main_arg13)) := by
  show StableHlo.after hostOps8 (W16 m ρ c) (Proc.devRef .tc main_v96) = _
  after_results
  rw [A_13 m ρ c]
  rfl

theorem L97 (c : Dev nD) : W17 m ρ c (Proc.devRef .tc main_v97) = row64 (m ((c : Thread nD τ).loc main_arg14)) := by
  show StableHlo.after hostOps8 (W16 m ρ c) (Proc.devRef .tc main_v97) = _
  after_results
  rw [A_14 m ρ c]
  rfl

theorem L98 (c : Dev nD) : W18 m ρ c (Proc.devRef .tc main_v98) = out m c := by
  refine (W18_arr m ρ c 3).trans ((Reg8.val (V17 m ρ) c).trans ?_)
  have e0 : V17 m ρ c main_v95 = g2 m c := L95' m ρ c
  have e1 : V17 m ρ c main_v96 = row64 (m ((c : Thread nD τ).loc main_arg13)) := L96 m ρ c
  have e2 : V17 m ρ c main_v97 = row64 (m ((c : Thread nD τ).loc main_arg14)) := L97 m ρ c
  rw [e0, e1, e2]
  rfl

/-! ## The kernel's value is the network -/

/-- A vector cast to one row, read along that row, is the vector. -/
theorem row64_apply (v : S64.Idx → Elt Ideal .f32) : (fun j : Fin 64 => row64 v (ix2 (0 : Fin 1) j)) = fun j => v (ix1 j) :=
  funext fun j => shapeCast_a_1a_apply v shapeCasts_S64_S1x64 0 j
theorem row128_apply (v : S128.Idx → Elt Ideal .f32) : (fun j : Fin 128 => row128 v (ix2 (0 : Fin 1) j)) = fun j => v (ix1 j) :=
  funext fun j => shapeCast_a_1a_apply v shapeCasts_S128_S1x128 0 j

/-- The composition of the nine regions and the stretches between them is the network of the specification. -/
theorem out_eq (c : Dev nD) : out m c = Cert.ReferenceIdeal.Glue.Net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold out g2 g1 g0 h5 a3 h4 h3 a2 h2 h1 a1 h0
  unfold Reg8.G Reg7.G Reg6.G Reg5.G Reg4.G Reg3.G Reg2.G Reg1.G Reg0.G Cert.ReferenceIdeal.Glue.Net
  simp only [row64_apply, row128_apply]

/-- The result array after the run is the network of the argument arrays. -/
theorem result (c : Dev nD) : W18 m ρ c (Proc.devRef .tc main_v98) = Cert.ReferenceIdeal.Glue.Net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (L98 m ρ c).trans (out_eq m c)

end Cert.KernelIdeal.KVal

end
-- ==== Proof.RefLN.lean ====
/-
  The reference's layer normalisation: its last twenty-four operations, read at an index.

  Operation by operation the reference takes the row sums of its [1000, 64] input (started from the literal zero),
  divides them by the literal 64, subtracts that mean from every entry of the row, sums the squared deviations (again
  from the literal zero), divides by 64, adds the small literal, takes the reciprocal square root, and finally scales
  every column by one vector and shifts it by another.  Read at the entry (p, q) this is, term for term, the
  specification's layer normalisation of the input with those two vectors.
-/
import proofs.«168961_j42296837931533_1_alg».proof.Proof.RefRead
import proofs.«168961_j42296837931533_1_alg».proof.Proof.Spec
import Idealize.ShloMosaic.Lib.ValueIdx
import Idealize.ShloMosaic.PureOps.Ideal.Laws

noncomputable section

namespace Cert.ReferenceIdeal.RefLN

open Cert.ReferenceIdeal Cert.ReferenceIdeal.ReadP
open Idealize.ShloMosaic Idealize.ShloMosaic.TcCoe Idealize.SL.Sem Idealize.ShloMosaic.StableHlo Idealize.ShloMosaic.ValueIdx

section
variable (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal))

/-- The mean column at any index of row `p`: the row's sum from the literal zero, divided by the literal 64. -/
theorem mean_eq (p : Fin 1000) (u : S1000x1.Idx) (hu : (u 0).val = p.val) :
    val_main_v111 (F := Ideal) x0 x1 x2 x3 x4 x5 x6 x7 x8 x9 x10 x11 x12 u
      = Cert.Spec.rowMean (val_main_v107 (F := Ideal) x0 x1 x2 x3 x4 x5 x6 x7 x8 x9 x10 x11 x12) p := by
  rw [val_main_v111_apply, val_main_v109_apply, val_main_v108_apply, val_main_v110_apply, val_main_cst_21_apply,
    val_main_cst_20_apply]
  unfold Cert.Spec.rowMean
  simp only [Ideal.hostDivf_def, Ideal.ofBits_def]
  refine congrArg (fun s => Ideal.div (Ideal.ofBits .f32 0x00000000#32 + s) (Ideal.ofBits .f32 0x42800000#32)) ?_
  refine Finset.sum_congr rfl fun k _ => ?_
  refine congrArg _ (funext fun a => Fin.ext ?_)
  match a with
  | ⟨0, _⟩ => exact hu
  | ⟨1, _⟩ => rfl

/-- The variance column at any index of row `p`: the sum of the squared deviations from the mean, from the literal
    zero, divided by the literal 64. -/
theorem var_eq (p : Fin 1000) (u : S1000x1.Idx) (hu : (u 0).val = p.val) :
    val_main_v118 (F := Ideal) x0 x1 x2 x3 x4 x5 x6 x7 x8 x9 x10 x11 x12 u
      = Cert.Spec.rowVar (val_main_v107 (F := Ideal) x0 x1 x2 x3 x4 x5 x6 x7 x8 x9 x10 x11 x12) p := by
  rw [val_main_v118_apply, val_main_v116_apply, val_main_v115_apply, val_main_v117_apply, val_main_cst_23_apply,
    val_main_cst_22_apply]
  unfold Cert.Spec.rowVar
  simp only [Ideal.hostDivf_def, Ideal.ofBits_def]
  refine congrArg (fun s => Ideal.div (Ideal.ofBits .f32 0x00000000#32 + s) (Ideal.ofBits .f32 0x42800000#32)) ?_
  refine Finset.sum_congr rfl fun k _ => ?_
  have hk : idx_main_v115 (idx_main_v116 u) k = ix2 p k :=
    funext fun a => Fin.ext (by match a with | ⟨0, _⟩ => exact hu | ⟨1, _⟩ => rfl)
  rw [hk, val_main_v114_apply, val_main_v113_apply, val_main_v112_apply,
    mean_eq x0 x1 x2 x3 x4 x5 x6 x7 x8 x9 x10 x11 x12 p (idx_main_v112 (ix2 p k)) rfl]
  rfl

end

/-- The reference's last stage is the specification's layer normalisation of the stage that feeds it, with the last
    two arguments of the program as the scale and the shift of the affine map. -/
theorem ln_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) (x12 x13 x14 : (⟨S64, .f32⟩ : BufTy).Contents (Elt Ideal)) :
    val_main_v131 (F := Ideal) x0 x1 x2 x3 x4 x5 x6 x7 x8 x9 x10 x11 x12 x13 x14
      = Cert.Spec.layerNorm (val_main_v107 (F := Ideal) x0 x1 x2 x3 x4 x5 x6 x7 x8 x9 x10 x11 x12) (fun j => x13 (ix1 j)) (fun j => x14 (ix1 j)) := by
  funext i
  obtain ⟨p, q, rfl⟩ : ∃ (p : Fin 1000) (q : Fin 64), i = ix2 p q := ⟨i 0, i 1, eq_ix2 i⟩
  rw [Cert.Spec.layerNorm_ix2]
  rw [val_main_v131_apply, val_main_v128_apply, val_main_v125_apply, val_main_v120_apply, val_main_v119_apply,
    val_main_v124_apply, val_main_v123_apply, val_main_v122_apply, val_main_v121_apply, val_main_cst_24_apply,
    val_main_v127_apply, val_main_v126_apply, val_main_v130_apply, val_main_v129_apply]
  rw [mean_eq x0 x1 x2 x3 x4 x5 x6 x7 x8 x9 x10 x11 x12 p (idx_main_v119 (ix2 p q)) rfl, var_eq x0 x1 x2 x3 x4 x5 x6 x7 x8 x9 x10 x11 x12 p (idx_main_v124 (ix2 p q)) rfl]
  have e13 : idx_main_v126 (idx_main_v127 (ix2 p q)) = ix1 q :=
    funext fun a => Fin.ext (by match a with | ⟨0, _⟩ => rfl)
  have e14 : idx_main_v129 (idx_main_v130 (ix2 p q)) = ix1 q :=
    funext fun a => Fin.ext (by match a with | ⟨0, _⟩ => rfl)
  rw [e13, e14]
  rfl

end Cert.ReferenceIdeal.RefLN

end
-- ==== Proof.RefStages.lean ====
/-
  The dense layers of the reference program as the specification's functions.

  Every `dot_general` of the reference contracts the columns of its left operand with the rows of its right one and
  has no batch axis, so at entry `(p, j)` it is the sum over `q` of `l (p, q) · r (q, j)`: the matrix product
  `dense l r`.  Every bias-and-rectifier group is four operations: the bias vector `[n]` broadcast to a row `[1, n]`,
  the row broadcast over the `m` rows, an addition, and the maximum with a broadcast literal zero; at entry `(p, q)`
  that is `max (a (p, q) + b q) 0`, which is `biasRelu a b`.  Each statement keeps the value the layer starts from
  as an opaque term: nothing earlier in the program is looked at.
-/
import proofs.«168961_j42296837931533_1_alg».proof.Proof.RefRead
import proofs.«168961_j42296837931533_1_alg».proof.Proof.LibPlainDot
import proofs.«168961_j42296837931533_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefStages

open Cert.ReferenceIdeal Cert.ReferenceIdeal.ReadP
open Idealize.ShloMosaic Idealize.ShloMosaic.ValueIdx

/-- The first feature transform: the node features times the first weight matrix. -/
theorem v32_eq (x0 : (⟨S50000x37, .f32⟩ : BufTy).Contents (Elt Ideal)) (x3 : (⟨S37x64, .f32⟩ : BufTy).Contents (Elt Ideal)) :
    val_main_v32 (F := Ideal) x0 x3 = Cert.Spec.dense x0 x3 := by
  funext i
  obtain ⟨p, j, rfl⟩ : ∃ (p : Fin 50000) (j : Fin 64), i = ix2 p j := ⟨i 0, i 1, eq_ix2 i⟩
  unfold val_main_v32
  exact Cert.PlainDot.dotGeneral_ix2 dot_S50000x37_S37x64_S50000x64_1_0_0_1_n_n rfl none _ _ p j

/-- Bias and rectifier after the first aggregation. -/
theorem v49_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) :
    val_main_v49 (F := Ideal) x0 x1 x3 x4 = Cert.Spec.biasRelu (val_main_v45 (F := Ideal) x0 x1 x3) (fun j => x4 (ix1 j)) := by
  funext i
  obtain ⟨p, q, rfl⟩ : ∃ (p : Fin 50000) (q : Fin 64), i = ix2 p q := ⟨i 0, i 1, eq_ix2 i⟩
  rw [val_main_v49_apply, val_main_v48_apply, val_main_v47_apply, val_main_v46_apply,
    val_main_call1_v0_apply, val_main_call1_cst_apply]
  have h : idx_main_v46 (idx_main_v47 (ix2 p q)) = ix1 q :=
    funext fun a => Fin.ext (by match a with | ⟨0, _⟩ => rfl)
  rw [h]
  rfl

/-- The second feature transform. -/
theorem v50_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) :
    val_main_v50 (F := Ideal) x0 x1 x3 x4 x5 = Cert.Spec.dense (val_main_v49 (F := Ideal) x0 x1 x3 x4) x5 := by
  funext i
  obtain ⟨p, j, rfl⟩ : ∃ (p : Fin 50000) (j : Fin 128), i = ix2 p j := ⟨i 0, i 1, eq_ix2 i⟩
  unfold val_main_v50
  exact Cert.PlainDot.dotGeneral_ix2 dot_S50000x64_S64x128_S50000x128_1_0_0_1_n_n rfl none _ _ p j

/-- Bias and rectifier after the second aggregation. -/
theorem v67_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) :
    val_main_v67 (F := Ideal) x0 x1 x3 x4 x5 x6 = Cert.Spec.biasRelu (val_main_v63 (F := Ideal) x0 x1 x3 x4 x5) (fun j => x6 (ix1 j)) := by
  funext i
  obtain ⟨p, q, rfl⟩ : ∃ (p : Fin 50000) (q : Fin 128), i = ix2 p q := ⟨i 0, i 1, eq_ix2 i⟩
  rw [val_main_v67_apply, val_main_v66_apply, val_main_v65_apply, val_main_v64_apply,
    val_main_call2_v0_apply, val_main_call2_cst_apply]
  have h : idx_main_v64 (idx_main_v65 (ix2 p q)) = ix1 q :=
    funext fun a => Fin.ext (by match a with | ⟨0, _⟩ => rfl)
  rw [h]
  rfl

/-- The third feature transform. -/
theorem v68_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) :
    val_main_v68 (F := Ideal) x0 x1 x3 x4 x5 x6 x7 = Cert.Spec.dense (val_main_v67 (F := Ideal) x0 x1 x3 x4 x5 x6) x7 := by
  funext i
  obtain ⟨p, j, rfl⟩ : ∃ (p : Fin 50000) (j : Fin 64), i = ix2 p j := ⟨i 0, i 1, eq_ix2 i⟩
  unfold val_main_v68
  exact Cert.PlainDot.dotGeneral_ix2 dot_S50000x128_S128x64_S50000x64_1_0_0_1_n_n rfl none _ _ p j

/-- Bias and rectifier after the third aggregation. -/
theorem v85_eq (x0 : (⟨S50000x37, .f32⟩ : BufTy).Contents (Elt Ideal)) (x1 : (⟨S2x600000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) :
    val_main_v85 (F := Ideal) x0 x1 x3 x4 x5 x6 x7 x8 = Cert.Spec.biasRelu (val_main_v81 (F := Ideal) x0 x1 x3 x4 x5 x6 x7) (fun j => x8 (ix1 j)) := by
  funext i
  obtain ⟨p, q, rfl⟩ : ∃ (p : Fin 50000) (q : Fin 64), i = ix2 p q := ⟨i 0, i 1, eq_ix2 i⟩
  rw [val_main_v85_apply, val_main_v84_apply, val_main_v83_apply, val_main_v82_apply,
    val_main_call3_v0_apply, val_main_call3_cst_apply]
  have h : idx_main_v82 (idx_main_v83 (ix2 p q)) = ix1 q :=
    funext fun a => Fin.ext (by match a with | ⟨0, _⟩ => rfl)
  rw [h]
  rfl

/-- The first layer of the readout: the pooled features times its weight matrix. -/
theorem v98_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) :
    val_main_v98 (F := Ideal) x0 x1 x2 x3 x4 x5 x6 x7 x8 x9 = Cert.Spec.dense (val_main_v97 (F := Ideal) x0 x1 x2 x3 x4 x5 x6 x7 x8) x9 := by
  funext i
  obtain ⟨p, j, rfl⟩ : ∃ (p : Fin 1000) (j : Fin 128), i = ix2 p j := ⟨i 0, i 1, eq_ix2 i⟩
  unfold val_main_v98
  exact Cert.PlainDot.dotGeneral_ix2 dot_S1000x64_S64x128_S1000x128_1_0_0_1_n_n rfl none _ _ p j

/-- The first layer of the readout with its bias and rectifier. -/
theorem v102_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) :
    val_main_v102 (F := Ideal) x0 x1 x2 x3 x4 x5 x6 x7 x8 x9 x10
      = Cert.Spec.biasRelu (Cert.Spec.dense (val_main_v97 (F := Ideal) x0 x1 x2 x3 x4 x5 x6 x7 x8) x9) (fun j => x10 (ix1 j)) := by
  rw [← v98_eq x0 x1 x2 x3 x4 x5 x6 x7 x8 x9]
  funext i
  obtain ⟨p, q, rfl⟩ : ∃ (p : Fin 1000) (q : Fin 128), i = ix2 p q := ⟨i 0, i 1, eq_ix2 i⟩
  rw [val_main_v102_apply, val_main_v101_apply, val_main_v100_apply, val_main_v99_apply,
    val_main_call4_v0_apply, val_main_call4_cst_apply]
  have h : idx_main_v99 (idx_main_v100 (ix2 p q)) = ix1 q :=
    funext fun a => Fin.ext (by match a with | ⟨0, _⟩ => rfl)
  rw [h]
  rfl

/-- The second layer of the readout. -/
theorem v103_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) :
    val_main_v103 (F := Ideal) x0 x1 x2 x3 x4 x5 x6 x7 x8 x9 x10 x11 = Cert.Spec.dense (val_main_v102 (F := Ideal) x0 x1 x2 x3 x4 x5 x6 x7 x8 x9 x10) x11 := by
  funext i
  obtain ⟨p, j, rfl⟩ : ∃ (p : Fin 1000) (j : Fin 64), i = ix2 p j := ⟨i 0, i 1, eq_ix2 i⟩
  unfold val_main_v103
  exact Cert.PlainDot.dotGeneral_ix2 dot_S1000x128_S128x64_S1000x64_1_0_0_1_n_n rfl none _ _ p j

/-- The second layer of the readout with its bias and rectifier. -/
theorem v107_eq (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) :
    val_main_v107 (F := Ideal) x0 x1 x2 x3 x4 x5 x6 x7 x8 x9 x10 x11 x12
      = Cert.Spec.biasRelu (Cert.Spec.dense (val_main_v102 (F := Ideal) x0 x1 x2 x3 x4 x5 x6 x7 x8 x9 x10) x11) (fun j => x12 (ix1 j)) := by
  rw [← v103_eq x0 x1 x2 x3 x4 x5 x6 x7 x8 x9 x10 x11]
  funext i
  obtain ⟨p, q, rfl⟩ : ∃ (p : Fin 1000) (q : Fin 64), i = ix2 p q := ⟨i 0, i 1, eq_ix2 i⟩
  rw [val_main_v107_apply, val_main_v106_apply, val_main_v105_apply, val_main_v104_apply,
    val_main_call5_v0_apply, val_main_call5_cst_apply]
  have h : idx_main_v104 (idx_main_v105 (ix2 p q)) = ix1 q :=
    funext fun a => Fin.ext (by match a with | ⟨0, _⟩ => rfl)
  rw [h]
  rfl

end Cert.ReferenceIdeal.RefStages

end
-- ==== Proof.RefVal.lean ====
/-
  The reference program's result as one composition of the specification's layers.

  Its last stage is the layer normalisation of the stage before; that one is a dense layer with bias and rectifier of
  the one before; and so on down to the first feature transform of the node features: every stage is one of the
  specification's functions (matrix product, bias and rectifier, layer normalisation) or one of the host stages
  between them (the three aggregations over the edges and the pooling per graph) applied to the stage it reads.
  Substituting stage by stage, outermost first, gives the network written as one term.
-/
import proofs.«168961_j42296837931533_1_alg».proof.Proof.RefRead
import proofs.«168961_j42296837931533_1_alg».proof.Proof.RefGlue
import proofs.«168961_j42296837931533_1_alg».proof.Proof.RefLN
import proofs.«168961_j42296837931533_1_alg».proof.Proof.RefStages
import proofs.«168961_j42296837931533_1_alg».proof.Proof.Spec

noncomputable section

namespace Cert.ReferenceIdeal.RefVal

open Cert.ReferenceIdeal Cert.ReferenceIdeal.ReadP
open Idealize.ShloMosaic Idealize.ShloMosaic.ValueIdx

/-- The value of the reference's last operation is the network of the specification on the program's arguments. -/
theorem ref_val (x0 : (⟨S50000x37, .f32⟩ : BufTy).Contents (Elt Ideal)) (x1 : (⟨S2x600000, .i32⟩ : BufTy).Contents (Elt Ideal)) (x2 : (⟨S50000, .i32⟩ : BufTy).Contents (Elt Ideal)) (x3 : (⟨S37x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) :
    Cert.ReferenceIdeal.ReadP.val_main_v131 (F := Ideal) x0 x1 x2 x3 x4 x5 x6 x7 x8 x9 x10 x11 x12 x13 x14
      = Cert.ReferenceIdeal.Glue.Net x0 x1 x2 x3 x4 x5 x6 x7 x8 x9 x10 x11 x12 x13 x14 := by
  rw [Cert.ReferenceIdeal.RefLN.ln_eq, Cert.ReferenceIdeal.RefStages.v107_eq, Cert.ReferenceIdeal.RefStages.v102_eq,
    Cert.ReferenceIdeal.Glue.v97_eq, Cert.ReferenceIdeal.RefStages.v85_eq, Cert.ReferenceIdeal.Glue.v81_eq,
    Cert.ReferenceIdeal.RefStages.v68_eq, Cert.ReferenceIdeal.RefStages.v67_eq, Cert.ReferenceIdeal.Glue.v63_eq,
    Cert.ReferenceIdeal.RefStages.v50_eq, Cert.ReferenceIdeal.RefStages.v49_eq, Cert.ReferenceIdeal.Glue.v45_eq,
    Cert.ReferenceIdeal.RefStages.v32_eq]
  unfold Cert.ReferenceIdeal.Glue.Net
  rfl

end Cert.ReferenceIdeal.RefVal

end
-- ==== Proof.lean ====
/-
  The certificate's claims.

  The kernel is a three-layer graph convolution network followed by a mean pool per graph, a two-layer perceptron and
  a layer normalisation.  Its nine pallas_call regions compute the dense parts — three feature transforms `x · W`,
  three `max (· + b, 0)`, two fused `max (x · W + b, 0)`, the normalisation — and the host operations between them the
  irregular parts (the degree normalisation, the gathers and scatter-adds over the edges, the pooling), which are the
  reference's own operations.  At the ideal instance a change of float format is the identity, a matrix product into a
  zero accumulator is the plain sum of products, and a lane sum is a finite sum, so region by region the kernel's arrays
  are the reference's stages: both programs end with the one function `Glue.Net` of the argument arrays.

  * The three frames: the two generated frame certificates, and the reference's run with its result dropped.
  * `preserves`: the ideal pass rewrote no operation, so the claim is `True`.
  * `algebraic`: the kernel's run ends with every unscoped buffer at the last boundary's contents (`KRun.run_all`),
    the result array among them, which read down the boundaries is `Net` of the arguments (`KVal.result`); the
    reference's run ends with its result at the composed term of its operations, which stage by stage is `Net` of
    its arguments (`RefVal.ref_val`); the two argument lists agree.
-/
import proofs.«168961_j42296837931533_1_alg».proof.Defs
import proofs.«168961_j42296837931533_1_alg».proof.Proof.Gen.Kernel
import proofs.«168961_j42296837931533_1_alg».proof.Proof.Gen.Kernel.Skeleton
import proofs.«168961_j42296837931533_1_alg».proof.Proof.Gen.Kernel.Launch
import proofs.«168961_j42296837931533_1_alg».proof.Proof.Gen.Kernel.Points
import proofs.«168961_j42296837931533_1_alg».proof.Proof.Gen.Kernel.Frame
import proofs.«168961_j42296837931533_1_alg».proof.Proof.Gen.KernelIdeal
import proofs.«168961_j42296837931533_1_alg».proof.Proof.Gen.KernelIdeal.Skeleton
import proofs.«168961_j42296837931533_1_alg».proof.Proof.Gen.KernelIdeal.Launch
import proofs.«168961_j42296837931533_1_alg».proof.Proof.Gen.KernelIdeal.Points
import proofs.«168961_j42296837931533_1_alg».proof.Proof.Gen.KernelIdeal.Frame
import proofs.«168961_j42296837931533_1_alg».proof.Proof.Gen.ReferenceIdeal
import proofs.«168961_j42296837931533_1_alg».proof.Proof.Gen.Pre_finite_inputs
import proofs.«168961_j42296837931533_1_alg».proof.Proof.KRun
import proofs.«168961_j42296837931533_1_alg».proof.Proof.KVal
import proofs.«168961_j42296837931533_1_alg».proof.Proof.RefRun
import proofs.«168961_j42296837931533_1_alg».proof.Proof.RefRead
import proofs.«168961_j42296837931533_1_alg».proof.Proof.RefGlue
import proofs.«168961_j42296837931533_1_alg».proof.Proof.RefVal
import Idealize.ShloMosaic.Adequacy
import Idealize.ShloMosaic.Init

set_option maxRecDepth 16384

noncomputable section

namespace Cert.Proof

open Idealize.ShloMosaic Idealize.SL.Sem

section Claims
variable [hKernel : Cert.Kernel.Facts] [hKernelIdeal : Cert.KernelIdeal.Facts] [hReferenceIdeal : Cert.ReferenceIdeal.Facts] [hPre : Cert.Pre_finite_inputs.Facts]

/-- Both programs end with the network `Net` of the argument arrays. -/
theorem algebraic : Cert.algebraic_KernelIdeal_ReferenceIdeal := by
  intro m ρ m' ρ' _ hagree
  refine ⟨fun c => Cert.ReferenceIdeal.Glue.Net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.KRun.run_all (F := Ideal) m ρ)
    exact ⟨(h c _ (Cert.KernelIdeal.Gen.mem_uc Cert.KernelIdeal.main_v98 (by decide))).trans (Cert.KernelIdeal.KVal.result m ρ c),
      (h c _ (Cert.KernelIdeal.Gen.mem_uc Cert.KernelIdeal.main_arg0 (by decide))).trans (Cert.KernelIdeal.Gen.W18_main_arg0 m ρ c),
      (h c _ (Cert.KernelIdeal.Gen.mem_uc Cert.KernelIdeal.main_arg1 (by decide))).trans (Cert.KernelIdeal.Gen.W18_main_arg1 m ρ c),
      (h c _ (Cert.KernelIdeal.Gen.mem_uc Cert.KernelIdeal.main_arg2 (by decide))).trans (Cert.KernelIdeal.Gen.W18_main_arg2 m ρ c),
      (h c _ (Cert.KernelIdeal.Gen.mem_uc Cert.KernelIdeal.main_arg3 (by decide))).trans (Cert.KernelIdeal.Gen.W18_main_arg3 m ρ c),
      (h c _ (Cert.KernelIdeal.Gen.mem_uc Cert.KernelIdeal.main_arg4 (by decide))).trans (Cert.KernelIdeal.Gen.W18_main_arg4 m ρ c),
      (h c _ (Cert.KernelIdeal.Gen.mem_uc Cert.KernelIdeal.main_arg5 (by decide))).trans (Cert.KernelIdeal.Gen.W18_main_arg5 m ρ c),
      (h c _ (Cert.KernelIdeal.Gen.mem_uc Cert.KernelIdeal.main_arg6 (by decide))).trans (Cert.KernelIdeal.Gen.W18_main_arg6 m ρ c),
      (h c _ (Cert.KernelIdeal.Gen.mem_uc Cert.KernelIdeal.main_arg7 (by decide))).trans (Cert.KernelIdeal.Gen.W18_main_arg7 m ρ c),
      (h c _ (Cert.KernelIdeal.Gen.mem_uc Cert.KernelIdeal.main_arg8 (by decide))).trans (Cert.KernelIdeal.Gen.W18_main_arg8 m ρ c),
      (h c _ (Cert.KernelIdeal.Gen.mem_uc Cert.KernelIdeal.main_arg9 (by decide))).trans (Cert.KernelIdeal.Gen.W18_main_arg9 m ρ c),
      (h c _ (Cert.KernelIdeal.Gen.mem_uc Cert.KernelIdeal.main_arg10 (by decide))).trans (Cert.KernelIdeal.Gen.W18_main_arg10 m ρ c),
      (h c _ (Cert.KernelIdeal.Gen.mem_uc Cert.KernelIdeal.main_arg11 (by decide))).trans (Cert.KernelIdeal.Gen.W18_main_arg11 m ρ c),
      (h c _ (Cert.KernelIdeal.Gen.mem_uc Cert.KernelIdeal.main_arg12 (by decide))).trans (Cert.KernelIdeal.Gen.W18_main_arg12 m ρ c),
      (h c _ (Cert.KernelIdeal.Gen.mem_uc Cert.KernelIdeal.main_arg13 (by decide))).trans (Cert.KernelIdeal.Gen.W18_main_arg13 m ρ c),
      (h c _ (Cert.KernelIdeal.Gen.mem_uc Cert.KernelIdeal.main_arg14 (by decide))).trans (Cert.KernelIdeal.Gen.W18_main_arg14 m ρ c)⟩
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v131_eq, Cert.ReferenceIdeal.RefVal.ref_val]
    obtain ⟨a0, a1, a2, a3, a4, a5, a6, a7, a8, a9, a10, a11, a12, a13, a14⟩ := hagree c
    rw [a0, a1, a2, a3, a4, a5, a6, a7, a8, a9, a10, a11, a12, a13, a14]

end Claims

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
